-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S1x16 : Shape := ⟨2, ![1, 16]⟩
abbrev S3300000x16 : Shape := ⟨2, ![3300000, 16]⟩
abbrev S100000x40 : Shape := ⟨2, ![100000, 40]⟩
abbrev S5000x40 : Shape := ⟨2, ![5000, 40]⟩
abbrev S1x40 : Shape := ⟨2, ![1, 40]⟩
abbrev S3300000x40 : Shape := ⟨2, ![3300000, 40]⟩
abbrev S5000 : Shape := ⟨1, ![5000]⟩
abbrev S5000x1 : Shape := ⟨2, ![5000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x100000, .i32⟩
  | .hbm, ⟨8, _⟩ => ⟨S1x1x1x100000, .i32⟩
  | .hbm, ⟨9, _⟩ => ⟨S2x1x1x100000, .i32⟩
  | .hbm, ⟨10, _⟩ => ⟨S2x100000, .i32⟩
  | .hbm, ⟨11, _⟩ => ⟨S2x3300000, .i32⟩
  | .hbm, ⟨12, _⟩ => ⟨S1x3300000, .i32⟩
  | .hbm, ⟨13, _⟩ => ⟨S3300000, .i32⟩
  | .hbm, ⟨14, _⟩ => ⟨S1x3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x16, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S_, .f32⟩
  | .hbm, ⟨62, _⟩ => ⟨S100000x16, .f32⟩
  | .hbm, ⟨63, _⟩ => ⟨S100000x16, .f32⟩
  | .hbm, ⟨64, _⟩ => ⟨S100000x40, .f32⟩
  | .hbm, ⟨65, _⟩ => ⟨S3300000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x40, .f32⟩
  | .local _ .vmem, ⟨9, _⟩ => ⟨S40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S1x16 : Shape := ⟨2, ![1, 16]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S100000x40 : Shape := ⟨2, ![100000, 40]⟩
abbrev S1x40 : Shape := ⟨2, ![1, 40]⟩
abbrev S3300000x40 : Shape := ⟨2, ![3300000, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S1x16, .f32⟩
  | 8 => ⟨S100000x16, .f32⟩
  | 9 => ⟨S100000x16, .f32⟩
  | 10 => ⟨S100000, .i32⟩
  | 11 => ⟨S1x100000, .i32⟩
  | 12 => ⟨S1x1x1x100000, .i32⟩
  | 13 => ⟨S2x1x1x100000, .i32⟩
  | 14 => ⟨S2x100000, .i32⟩
  | 15 => ⟨S2x3300000, .i32⟩
  | 16 => ⟨S1x3300000, .i32⟩
  | 17 => ⟨S3300000, .i32⟩
  | 18 => ⟨S1x3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S3300000x1, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x16, .f32⟩
  | 59 => ⟨S3300000x16, .f32⟩
  | 60 => ⟨S_, .f32⟩
  | 61 => ⟨S100000x16, .f32⟩
  | 62 => ⟨S3300000x1, .i32⟩
  | 63 => ⟨S100000x16, .f32⟩
  | 64 => ⟨S_, .f32⟩
  | 65 => ⟨S100000x16, .f32⟩
  | 66 => ⟨S100000x16, .f32⟩
  | 67 => ⟨S100000x40, .f32⟩
  | 68 => ⟨S1x40, .f32⟩
  | 69 => ⟨S100000x40, .f32⟩
  | 70 => ⟨S100000x40, .f32⟩
  | 71 => ⟨S100000, .i32⟩
  | 72 => ⟨S1x100000, .i32⟩
  | 73 => ⟨S1x1x1x100000, .i32⟩
  | 74 => ⟨S2x1x1x100000, .i32⟩
  | 75 => ⟨S2x100000, .i32⟩
  | 76 => ⟨S2x3300000, .i32⟩
  | 77 => ⟨S1x3300000, .i32⟩
  | 78 => ⟨S3300000, .i32⟩
  | 79 => ⟨S1x3300000, .i32⟩
  | 80 => ⟨S3300000, .i32⟩
  | 81 => ⟨S_, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S3300000x1, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x40, .f32⟩
  | 120 => ⟨S3300000x40, .f32⟩
  | 121 => ⟨S_, .f32⟩
  | 122 => ⟨S100000x40, .f32⟩
  | 123 => ⟨S3300000x1, .i32⟩
  | 124 => ⟨S100000x40, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_13 : Ref sig .tc := ⟨.hbm, 99, rfl⟩
abbrev main_v76 : Ref sig .tc := ⟨.hbm, 100, rfl⟩
abbrev main_v77 : Ref sig .tc := ⟨.hbm, 101, rfl⟩
abbrev main_c_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_15 : Ref sig .tc := ⟨.hbm, 110, rfl⟩
abbrev main_v85 : Ref sig .tc := ⟨.hbm, 111, rfl⟩
abbrev main_v86 : Ref sig .tc := ⟨.hbm, 112, rfl⟩
abbrev main_c_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_call1_cst_0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_cst_1 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KRun.lean ====
/-
  The kernel program's run with its result named: every weakly fair execution of the whole program — the edge
  bookkeeping, the first dense layer's region, the aggregation and rectifier, the second dense layer's region, the second
  aggregation, the log-softmax region — terminates with the result array at what the last region's write-backs leave
  (the fold `W7` of the program's segments over the launch memory, read at the result's buffer) and the arguments as
  launched.  The launch is the one the frame of this program is proved with; only the reading of the final state differs:
  the result's buffer is read beside the arguments'.
-/
import proofs.«106247_j9878424780941_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its final state read at the result's buffer and at the six arguments'. -/
theorem run_out : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Spec.lean ====
/-
  One vocabulary for the two programs.  Both compute a two-layer graph convolution followed by a row-wise
  log-softmax:   out = logSoftmax (A · (relu (A · (x·w₁ + b₁)) · w₂ + b₂)),
  where A is the degree-normalised adjacency of the edge list with a self loop appended at every node: the sum over
  the edges e = (s → t) of dinv(s)·dinv(t)·h[s] accumulated at row t, dinv = deg^(-1/2), deg counting a node's
  outgoing edges.  The edge bookkeeping (append the loops, split sources and targets, count degrees, gather, scale,
  scatter-add) is the same chain of array operations in both programs; it is named here once, operation by operation,
  and is never opened by the proof.  The two dense layers and the log-softmax are stated entry by entry.
-/
import proofs.«106247_j9878424780941_1_alg».proof.Proof.Gen.KernelIdeal
import Idealize.ShloMosaic.Lib.ValueIdx
import Idealize.ShloMosaic.PureOps.Ideal

noncomputable section

namespace Cert.Gcn

open Cert.KernelIdeal Cert.KernelIdeal.Facts₀ Idealize.ShloMosaic Idealize.ShloMosaic.ValueIdx
open scoped BigOperators

/-- An array of 32-bit integers, and an array of extended reals, of a given shape. -/
abbrev IArr (s : Shape) : Type := (⟨s, .i32⟩ : BufTy).Contents (Elt Ideal)
abbrev RArr (s : Shape) : Type := (⟨s, .f32⟩ : BufTy).Contents (Elt Ideal)

/-! ## The edge bookkeeping, operation by operation -/

/-- The self loops: the node ids 0 … 99999 in both rows of a 2 × 100000 array. -/
def loops : IArr S2x100000 :=
  shapeCast S2x100000 (broadcastInDim S2x1x1x100000 ![0, 1, 2, 3] bcast_S1x1x1x100000_S2x1x1x100000_0_1_2_3
    (shapeCast S1x1x1x100000 (broadcastInDim S1x100000 ![1] bcast_S100000_S1x100000_1 (iotaInDim S100000 32 0))
      shapeCasts_S1x100000_S1x1x1x100000)) shapeCasts_S2x1x1x100000_S2x100000

/-- The edge list with the self loops appended: 2 × 3300000. -/
def edges (e : IArr S2x3200000) : IArr S2x3300000 :=
  concatenate S2x3300000 1 [⟨S2x3200000, e⟩, ⟨S2x100000, loops⟩] concatenates_S2x3200000_S2x100000_S2x3300000_d1

/-- Row 0 of the extended edge list: the source of every edge. -/
def src (e : IArr S2x3200000) : IArr S3300000 :=
  shapeCast S3300000 (extractStridedSlice S1x3300000 ![0, 0] (edges e) slices_S2x3300000_S1x3300000_0_0) shapeCasts_S1x3300000_S3300000

/-- Row 1: the target of every edge. -/
def tgt (e : IArr S2x3200000) : IArr S3300000 :=
  shapeCast S3300000 (extractStridedSlice S1x3300000 ![1, 0] (edges e) slices_S2x3300000_S1x3300000_1_0) shapeCasts_S1x3300000_S3300000

/-- A per-edge vector as a one-column array (the index operand of a gather or scatter, or a per-edge scale). -/
def col {α : Type} (v : S3300000.Idx → α) : S3300000x1.Idx → α :=
  broadcastInDim S3300000x1 ![0] bcast_S3300000_S3300000x1_0 v

/-- A node id below zero counts from the end: add the number of nodes to it. -/
def wrap (v : IArr S3300000) : IArr S3300000 :=
  select (cmpi .slt v (broadcastInDim S3300000 ![] bcast_S_S3300000 (constantI S_ 32 0#32)))
    (addi v (broadcastInDim S3300000 ![] bcast_S_S3300000 (constantI S_ 32 100000#32))) v

/-- A node's degree: one for every edge leaving it, added into zeros. -/
def deg (s : IArr S3300000) : RArr S100000 :=
  Host.scatterAdd (F := Ideal) scatter_S100000_S3300000x1_S3300000_n_0_0_1
    (broadcastInDim S100000 ![] bcast_S_S100000 (constant (F := Ideal) S_ .f32 0x00000000#32)) (col s)
    (broadcastInDim S3300000 ![] bcast_S_S3300000 (constant (F := Ideal) S_ .f32 0x3F800000#32))

/-- deg^(-1/2). -/
def dinv (s : IArr S3300000) : RArr S100000 :=
  Host.powf (F := Ideal) (deg s) (broadcastInDim S100000 ![] bcast_S_S100000 (constant (F := Ideal) S_ .f32 0xBF000000#32))

/-- The weight of an edge s → t: dinv(s) · dinv(t). -/
def norm (s t : IArr S3300000) : RArr S3300000 :=
  mulf (F := Ideal) (φ := .f32) (Host.gather gather_S100000_S3300000x1_S3300000_n_0_n_n_0_1_1 (dinv s) (col (wrap s)))
    (Host.gather gather_S100000_S3300000x1_S3300000_n_0_n_n_0_1_1 (dinv s) (col (wrap t)))

/-- Aggregation of 16 features: row t of the result is the sum over the edges s → t of weight · h[s]. -/
def agg16 (s t : IArr S3300000) (n : RArr S3300000) (h : RArr S100000x16) : RArr S100000x16 :=
  Host.scatterAdd (F := Ideal) scatter_S100000x16_S3300000x1_S3300000x16_1_0_0_1
    (broadcastInDim S100000x16 ![] bcast_S_S100000x16 (constant (F := Ideal) S_ .f32 0x00000000#32)) (col t)
    (mulf (F := Ideal) (φ := .f32) (broadcastInDim S3300000x16 ![0, 1] bcast_S3300000x1_S3300000x16_0_1 (col n))
      (Host.gather gather_S100000x16_S3300000x1_S3300000x16_1_0_n_n_0_1_116 h (col (wrap s))))

/-- The same aggregation of 40 features. -/
def agg40 (s t : IArr S3300000) (n : RArr S3300000) (h : RArr S100000x40) : RArr S100000x40 :=
  Host.scatterAdd (F := Ideal) scatter_S100000x40_S3300000x1_S3300000x40_1_0_0_1
    (broadcastInDim S100000x40 ![] bcast_S_S100000x40 (constant (F := Ideal) S_ .f32 0x00000000#32)) (col t)
    (mulf (F := Ideal) (φ := .f32) (broadcastInDim S3300000x40 ![0, 1] bcast_S3300000x1_S3300000x40_0_1 (col n))
      (Host.gather gather_S100000x40_S3300000x1_S3300000x40_1_0_n_n_0_1_140 h (col (wrap s))))

/-- max(h, 0), entry by entry. -/
def relu (h : RArr S100000x16) : RArr S100000x16 :=
  maximumf (F := Ideal) (φ := .f32) h (broadcastInDim S100000x16 ![] bcast_S_S100000x16 (constant (F := Ideal) S_ .f32 0x00000000#32))

/-! ## The dense layers and the log-softmax, entry by entry -/

/-- x·w + b at entry (r, j): the sum over k of x(r, k)·w(k, j), plus b(j). -/
def lin {M K N : ℕ} (X : (⟨2, ![M, K]⟩ : Shape).Idx → EReal) (W : (⟨2, ![K, N]⟩ : Shape).Idx → EReal)
    (B : (⟨1, ![N]⟩ : Shape).Idx → EReal) : (⟨2, ![M, N]⟩ : Shape).Idx → EReal :=
  fun i => (∑ k : Fin K, X (ix2 (⟨(i 0).val, (i 0).isLt⟩ : Fin M) k) * W (ix2 k (⟨(i 1).val, (i 1).isLt⟩ : Fin N)))
    + B (ix1 (⟨(i 1).val, (i 1).isLt⟩ : Fin N))

/-- The largest entry of row r (−∞ for an empty row). -/
def rowMax {M N : ℕ} (H : (⟨2, ![M, N]⟩ : Shape).Idx → EReal) (r : Fin M) : EReal :=
  (Finset.univ : Finset (Fin N)).fold max (⊥ : EReal) (fun q => H (ix2 r q))

/-- Row-wise log-softmax: with z = h − rowMax, entry (r, j) is z(r, j) − log (∑ q, exp z(r, q)). -/
def logSoftmax {M N : ℕ} (H : (⟨2, ![M, N]⟩ : Shape).Idx → EReal) : (⟨2, ![M, N]⟩ : Shape).Idx → EReal :=
  fun i =>
    let r : Fin M := ⟨(i 0).val, (i 0).isLt⟩
    (H i - rowMax H r) - Ideal.log (∑ q : Fin N, Ideal.exp (H (ix2 r q) - rowMax H r))

end Cert.Gcn

end
-- ==== Proof.KHost.lean ====
/-
  What the kernel program's stretches of array operations leave in the buffers the regions and later stretches read,
  for ANY contents `W` of the buffers they start from: the edge bookkeeping of `Cert.Gcn`, applied to what `W` holds.
-/
import proofs.«106247_j9878424780941_1_alg».proof.Proof.Spec
import proofs.«106247_j9878424780941_1_alg».proof.Proof.Gen.KernelIdeal.Launch
import Idealize.ShloMosaic.Lib.StableHlo.Run

noncomputable section

namespace Cert.KernelIdeal.HostChain

open Cert.KernelIdeal Cert.KernelIdeal.Gen Idealize.ShloMosaic Idealize.ShloMosaic.TcCoe Idealize.SL.Sem
open Idealize.ShloMosaic.StableHlo Cert.Gcn

variable (W : Valuation τ sig (Elt Ideal))

/-- Before the first dense layer: the sources of the edges (self loops appended). -/
theorem src_eq : after (hostOps0 (F := Ideal)) W (Proc.devRef .tc main_v7) = src (W (Proc.devRef .tc main_arg1)) := by
  after_results_simp; rfl

/-- … their targets … -/
theorem tgt_eq : after (hostOps0 (F := Ideal)) W (Proc.devRef .tc main_v9) = tgt (W (Proc.devRef .tc main_arg1)) := by
  after_results_simp; rfl

/-- … and their weights. -/
theorem norm_eq : after (hostOps0 (F := Ideal)) W (Proc.devRef .tc main_v30)
    = norm (src (W (Proc.devRef .tc main_arg1))) (tgt (W (Proc.devRef .tc main_arg1))) := by
  after_results_simp; rfl

/-- The arguments the dense layers read are not touched by the bookkeeping. -/
theorem keep0_arg0 : after (hostOps0 (F := Ideal)) W (Proc.devRef .tc main_arg0) = W (Proc.devRef .tc main_arg0) := by
  after_results_simp
theorem keep0_arg2 : after (hostOps0 (F := Ideal)) W (Proc.devRef .tc main_arg2) = W (Proc.devRef .tc main_arg2) := by
  after_results_simp
theorem keep0_arg3 : after (hostOps0 (F := Ideal)) W (Proc.devRef .tc main_arg3) = W (Proc.devRef .tc main_arg3) := by
  after_results_simp
theorem keep0_arg4 : after (hostOps0 (F := Ideal)) W (Proc.devRef .tc main_arg4) = W (Proc.devRef .tc main_arg4) := by
  after_results_simp
theorem keep0_arg5 : after (hostOps0 (F := Ideal)) W (Proc.devRef .tc main_arg5) = W (Proc.devRef .tc main_arg5) := by
  after_results_simp

/-- Between the first dense layer and the rectifier: the aggregation of its 16 features over the edges. -/
theorem agg16_eq : after (hostOps1 (F := Ideal)) W (Proc.devRef .tc main_v44)
    = agg16 (W (Proc.devRef .tc main_v7)) (W (Proc.devRef .tc main_v9)) (W (Proc.devRef .tc main_v30)) (W (Proc.devRef .tc main_v31)) := by
  after_results_simp; rfl

/-- It leaves the edges, their weights and the second layer's arguments as they were. -/
theorem keep1_v7 : after (hostOps1 (F := Ideal)) W (Proc.devRef .tc main_v7) = W (Proc.devRef .tc main_v7) := by
  after_results_simp
theorem keep1_v9 : after (hostOps1 (F := Ideal)) W (Proc.devRef .tc main_v9) = W (Proc.devRef .tc main_v9) := by
  after_results_simp
theorem keep1_v30 : after (hostOps1 (F := Ideal)) W (Proc.devRef .tc main_v30) = W (Proc.devRef .tc main_v30) := by
  after_results_simp
theorem keep1_arg4 : after (hostOps1 (F := Ideal)) W (Proc.devRef .tc main_arg4) = W (Proc.devRef .tc main_arg4) := by
  after_results_simp
theorem keep1_arg5 : after (hostOps1 (F := Ideal)) W (Proc.devRef .tc main_arg5) = W (Proc.devRef .tc main_arg5) := by
  after_results_simp

/-- The rectifier. -/
theorem relu_eq : after (hostOps1_1 (F := Ideal)) W (Proc.devRef .tc main_v45) = relu (W (Proc.devRef .tc main_v44)) := by
  after_results_simp; rfl

theorem keep1_1_v7 : after (hostOps1_1 (F := Ideal)) W (Proc.devRef .tc main_v7) = W (Proc.devRef .tc main_v7) := by
  after_results_simp
theorem keep1_1_v9 : after (hostOps1_1 (F := Ideal)) W (Proc.devRef .tc main_v9) = W (Proc.devRef .tc main_v9) := by
  after_results_simp
theorem keep1_1_v30 : after (hostOps1_1 (F := Ideal)) W (Proc.devRef .tc main_v30) = W (Proc.devRef .tc main_v30) := by
  after_results_simp
theorem keep1_1_arg4 : after (hostOps1_1 (F := Ideal)) W (Proc.devRef .tc main_arg4) = W (Proc.devRef .tc main_arg4) := by
  after_results_simp
theorem keep1_1_arg5 : after (hostOps1_1 (F := Ideal)) W (Proc.devRef .tc main_arg5) = W (Proc.devRef .tc main_arg5) := by
  after_results_simp

/-- Between the second dense layer and the log-softmax: the aggregation of its 40 features. -/
theorem agg40_eq : after (hostOps2 (F := Ideal)) W (Proc.devRef .tc main_v59)
    = agg40 (W (Proc.devRef .tc main_v7)) (W (Proc.devRef .tc main_v9)) (W (Proc.devRef .tc main_v30)) (W (Proc.devRef .tc main_v46)) := by
  after_results_simp; rfl

end Cert.KernelIdeal.HostChain

end
-- ==== Proof.KValue.lean ====
/-
  The kernel program's result as one function of its arguments.  The program's segments are walked from the last to the
  first: what the log-softmax region leaves is the log-softmax of what the second aggregation left; that is the
  aggregation of what the second dense layer's region left; and so on down to the arguments.  A buffer that a segment
  does not write is read through it unchanged (the edges, their weights and the second layer's parameters live across
  several segments).  What each region leaves — a dense layer, the log-softmax, of the arrays it finds, whatever they
  are — enters as a hypothesis, proved beside this module.
-/
import proofs.«106247_j9878424780941_1_alg».proof.Proof.Spec
import proofs.«106247_j9878424780941_1_alg».proof.Proof.KHost
import proofs.«106247_j9878424780941_1_alg».proof.Proof.Gen.KernelIdeal.Frame

noncomputable section

namespace Cert.KernelIdeal.Walk

open Cert.KernelIdeal Cert.KernelIdeal.Gen Cert.KernelIdeal.HostChain Cert.Gcn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first region: the edges, their weights, and the untouched arguments -/

theorem W1_v7 (c : Dev nD) : W1 m ρ c (Proc.devRef .tc main_v7) = src (m ((c.tc : Thread nD τ).loc main_arg1)) :=
  src_eq (W0 m ρ c)
theorem W1_v9 (c : Dev nD) : W1 m ρ c (Proc.devRef .tc main_v9) = tgt (m ((c.tc : Thread nD τ).loc main_arg1)) :=
  tgt_eq (W0 m ρ c)
theorem W1_v30 (c : Dev nD) : W1 m ρ c (Proc.devRef .tc main_v30)
    = norm (src (m ((c.tc : Thread nD τ).loc main_arg1))) (tgt (m ((c.tc : Thread nD τ).loc main_arg1))) :=
  norm_eq (W0 m ρ c)
theorem W1_arg0 (c : Dev nD) : W1 m ρ c (Proc.devRef .tc main_arg0) = m ((c.tc : Thread nD τ).loc main_arg0) := keep0_arg0 (W0 m ρ c)
theorem W1_arg2 (c : Dev nD) : W1 m ρ c (Proc.devRef .tc main_arg2) = m ((c.tc : Thread nD τ).loc main_arg2) := keep0_arg2 (W0 m ρ c)
theorem W1_arg3 (c : Dev nD) : W1 m ρ c (Proc.devRef .tc main_arg3) = m ((c.tc : Thread nD τ).loc main_arg3) := keep0_arg3 (W0 m ρ c)
theorem W1_arg4 (c : Dev nD) : W1 m ρ c (Proc.devRef .tc main_arg4) = m ((c.tc : Thread nD τ).loc main_arg4) := keep0_arg4 (W0 m ρ c)
theorem W1_arg5 (c : Dev nD) : W1 m ρ c (Proc.devRef .tc main_arg5) = m ((c.tc : Thread nD τ).loc main_arg5) := keep0_arg5 (W0 m ρ c)

/-! ## What lives across the segments up to the second aggregation -/

theorem W4_v7 (c : Dev nD) : W4 m ρ c (Proc.devRef .tc main_v7) = W1 m ρ c (Proc.devRef .tc main_v7) :=
  calc W4 m ρ c (Proc.devRef .tc main_v7)
    _ = W3 m ρ c (Proc.devRef .tc main_v7) := keep1_1_v7 (W3 m ρ c)
    _ = W2 m ρ c (Proc.devRef .tc main_v7) := keep1_v7 (W2 m ρ c)
    _ = W1 m ρ c (Proc.devRef .tc main_v7) := W2_of_ne m ρ c main_v7 (by decide)

theorem W4_v9 (c : Dev nD) : W4 m ρ c (Proc.devRef .tc main_v9) = W1 m ρ c (Proc.devRef .tc main_v9) :=
  calc W4 m ρ c (Proc.devRef .tc main_v9)
    _ = W3 m ρ c (Proc.devRef .tc main_v9) := keep1_1_v9 (W3 m ρ c)
    _ = W2 m ρ c (Proc.devRef .tc main_v9) := keep1_v9 (W2 m ρ c)
    _ = W1 m ρ c (Proc.devRef .tc main_v9) := W2_of_ne m ρ c main_v9 (by decide)

theorem W4_v30 (c : Dev nD) : W4 m ρ c (Proc.devRef .tc main_v30) = W1 m ρ c (Proc.devRef .tc main_v30) :=
  calc W4 m ρ c (Proc.devRef .tc main_v30)
    _ = W3 m ρ c (Proc.devRef .tc main_v30) := keep1_1_v30 (W3 m ρ c)
    _ = W2 m ρ c (Proc.devRef .tc main_v30) := keep1_v30 (W2 m ρ c)
    _ = W1 m ρ c (Proc.devRef .tc main_v30) := W2_of_ne m ρ c main_v30 (by decide)

theorem W4_arg4 (c : Dev nD) : W4 m ρ c (Proc.devRef .tc main_arg4) = W1 m ρ c (Proc.devRef .tc main_arg4) :=
  calc W4 m ρ c (Proc.devRef .tc main_arg4)
    _ = W3 m ρ c (Proc.devRef .tc main_arg4) := keep1_1_arg4 (W3 m ρ c)
    _ = W2 m ρ c (Proc.devRef .tc main_arg4) := keep1_arg4 (W2 m ρ c)
    _ = W1 m ρ c (Proc.devRef .tc main_arg4) := W2_of_ne m ρ c main_arg4 (by decide)

theorem W4_arg5 (c : Dev nD) : W4 m ρ c (Proc.devRef .tc main_arg5) = W1 m ρ c (Proc.devRef .tc main_arg5) :=
  calc W4 m ρ c (Proc.devRef .tc main_arg5)
    _ = W3 m ρ c (Proc.devRef .tc main_arg5) := keep1_1_arg5 (W3 m ρ c)
    _ = W2 m ρ c (Proc.devRef .tc main_arg5) := keep1_arg5 (W2 m ρ c)
    _ = W1 m ρ c (Proc.devRef .tc main_arg5) := W2_of_ne m ρ c main_arg5 (by decide)

theorem W5_v7 (c : Dev nD) : W5 m ρ c (Proc.devRef .tc main_v7) = W1 m ρ c (Proc.devRef .tc main_v7) :=
  (W5_of_ne m ρ c main_v7 (by decide)).trans (W4_v7 m ρ c)

theorem W5_v9 (c : Dev nD) : W5 m ρ c (Proc.devRef .tc main_v9) = W1 m ρ c (Proc.devRef .tc main_v9) :=
  (W5_of_ne m ρ c main_v9 (by decide)).trans (W4_v9 m ρ c)

theorem W5_v30 (c : Dev nD) : W5 m ρ c (Proc.devRef .tc main_v30) = W1 m ρ c (Proc.devRef .tc main_v30) :=
  (W5_of_ne m ρ c main_v30 (by decide)).trans (W4_v30 m ρ c)

theorem W2_same (c : Dev nD) (b : Ref sig .tc) (hb : ∀ w, Pipeline.arrRef spec0 w ≠ b) :
    W2 m ρ c (Proc.devRef .tc b) = W1 m ρ c (Proc.devRef .tc b) := W2_of_ne m ρ c b hb

/-! ## The walk -/

section
variable
  (hlin1 : ∀ (V : (c : Dev nD) → (b : Ref sig .tc) → Buf (Elt Ideal) ((c : Thread nD τ).loc b)) (c : Dev nD),
    (dat0 (F := Ideal) V c).arrAt 3 cfg0.N = lin (V c main_arg0) (V c main_arg2) (V c main_arg3))
  (hlin2 : ∀ (V : (c : Dev nD) → (b : Ref sig .tc) → Buf (Elt Ideal) ((c : Thread nD τ).loc b)) (c : Dev nD),
    (dat1 (F := Ideal) V c).arrAt 3 cfg1.N = lin (V c main_v45) (V c main_arg4) (V c main_arg5))
  (hsoft : ∀ (V : (c : Dev nD) → (b : Ref sig .tc) → Buf (Elt Ideal) ((c : Thread nD τ).loc b)) (c : Dev nD),
    (dat2 (F := Ideal) V c).arrAt 1 cfg2.N = logSoftmax (V c main_v59))

include hlin1 in
/-- After the first region: the first dense layer of the arguments. -/
theorem W2_v31 (c : Dev nD) : W2 m ρ c (Proc.devRef .tc main_v31)
    = lin (m ((c.tc : Thread nD τ).loc main_arg0)) (m ((c.tc : Thread nD τ).loc main_arg2)) (m ((c.tc : Thread nD τ).loc main_arg3)) := by
  refine (W2_arr m ρ c 3).trans ((hlin1 (V1 m ρ) c).trans ?_)
  show lin (W1 m ρ c (Proc.devRef .tc main_arg0)) (W1 m ρ c (Proc.devRef .tc main_arg2)) (W1 m ρ c (Proc.devRef .tc main_arg3)) = _
  rw [W1_arg0, W1_arg2, W1_arg3]

include hlin1 in
/-- After the first aggregation and the rectifier. -/
theorem W4_v45 (c : Dev nD) : W4 m ρ c (Proc.devRef .tc main_v45)
    = relu (agg16 (src (m ((c.tc : Thread nD τ).loc main_arg1))) (tgt (m ((c.tc : Thread nD τ).loc main_arg1)))
        (norm (src (m ((c.tc : Thread nD τ).loc main_arg1))) (tgt (m ((c.tc : Thread nD τ).loc main_arg1))))
        (lin (m ((c.tc : Thread nD τ).loc main_arg0)) (m ((c.tc : Thread nD τ).loc main_arg2)) (m ((c.tc : Thread nD τ).loc main_arg3)))) := by
  refine (relu_eq (W3 m ρ c)).trans (congrArg relu ?_)
  refine (agg16_eq (W2 m ρ c)).trans ?_
  rw [W2_same m ρ c main_v7 (by decide), W2_same m ρ c main_v9 (by decide), W2_same m ρ c main_v30 (by decide),
    W1_v7, W1_v9, W1_v30, W2_v31 m ρ hlin1 c]

include hlin1 hlin2 in
/-- After the second region: the second dense layer of that. -/
theorem W5_v46 (c : Dev nD) : W5 m ρ c (Proc.devRef .tc main_v46)
    = lin (relu (agg16 (src (m ((c.tc : Thread nD τ).loc main_arg1))) (tgt (m ((c.tc : Thread nD τ).loc main_arg1)))
        (norm (src (m ((c.tc : Thread nD τ).loc main_arg1))) (tgt (m ((c.tc : Thread nD τ).loc main_arg1))))
        (lin (m ((c.tc : Thread nD τ).loc main_arg0)) (m ((c.tc : Thread nD τ).loc main_arg2)) (m ((c.tc : Thread nD τ).loc main_arg3)))))
        (m ((c.tc : Thread nD τ).loc main_arg4)) (m ((c.tc : Thread nD τ).loc main_arg5)) := by
  refine (W5_arr m ρ c 3).trans ((hlin2 (V4 m ρ) c).trans ?_)
  show lin (W4 m ρ c (Proc.devRef .tc main_v45)) (W4 m ρ c (Proc.devRef .tc main_arg4)) (W4 m ρ c (Proc.devRef .tc main_arg5)) = _
  rw [W4_v45 m ρ hlin1 c, W4_arg4, W4_arg5, W1_arg4, W1_arg5]

include hlin1 hlin2 hsoft in
/-- The result: the log-softmax of the second aggregation. -/
theorem out_eq (c : Dev nD) : W7 m ρ c (Proc.devRef .tc main_v60)
    = logSoftmax (agg40 (src (m ((c.tc : Thread nD τ).loc main_arg1))) (tgt (m ((c.tc : Thread nD τ).loc main_arg1)))
        (norm (src (m ((c.tc : Thread nD τ).loc main_arg1))) (tgt (m ((c.tc : Thread nD τ).loc main_arg1))))
        (lin (relu (agg16 (src (m ((c.tc : Thread nD τ).loc main_arg1))) (tgt (m ((c.tc : Thread nD τ).loc main_arg1)))
          (norm (src (m ((c.tc : Thread nD τ).loc main_arg1))) (tgt (m ((c.tc : Thread nD τ).loc main_arg1))))
          (lin (m ((c.tc : Thread nD τ).loc main_arg0)) (m ((c.tc : Thread nD τ).loc main_arg2)) (m ((c.tc : Thread nD τ).loc main_arg3)))))
          (m ((c.tc : Thread nD τ).loc main_arg4)) (m ((c.tc : Thread nD τ).loc main_arg5)))) := by
  refine (W7_arr m ρ c 1).trans ((hsoft (V6 m ρ) c).trans (congrArg logSoftmax ?_))
  refine (agg40_eq (W5 m ρ c)).trans ?_
  rw [W5_v7, W5_v9, W5_v30, W1_v7, W1_v9, W1_v30, W5_v46 m ρ hlin1 hlin2 c]

end

end Cert.KernelIdeal.Walk

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KLin1.lean ====
/-
  The first dense layer of the kernel program, for ANY contents the region finds in its arrays:
  the output array ends holding x·w + b, entry (r, j) = (∑ k, x(r, k)·w(k, j)) + b(j).
  The region runs over 20 grid points; point t stages rows 5000·t … 5000·t + 4999 of x, all of w and b, computes the
  block's product (the two roundings to bf16 are the identity on the extended reals, and accumulating into zeros adds
  nothing), adds the bias row to every row, and writes the block back to rows 5000·t … of the output. Row r of the output
  is therefore written by point r / 5000, and the twenty blocks cover the array.
-/
import proofs.«106247_j9878424780941_1_alg».proof.Proof.Spec
import proofs.«106247_j9878424780941_1_alg».proof.Proof.Gen.KernelIdeal.Frame
import proofs.«106247_j9878424780941_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace Lin1

/-- The product's dimension record is the plain one: rows × contraction by contraction × columns, no batch axis. -/
theorem dims_plain : dot_S5000x512_S512x16_S5000x16_1_0_0_1_n_n = DotDims.plain 5000 512 16 := rfl

/-- The body's arithmetic at entry (p, q): the bf16 roundings are the identity on the extended reals, the product
    accumulated into zeros is the plain sum of products, and the bias row is repeated down the rows. -/
theorem pay_apply (x0 : Vec Ideal S5000x512 .f32) (x1 : Vec Ideal S512x16 .f32) (x2 : Vec Ideal S16 .f32) (p : Fin 5000) (q : Fin 16) :
    k0_pay1 x0 x1 x2 (ix2 p q) = (∑ k : Fin 512, x0 (ix2 p k) * x1 (ix2 k q)) + x2 (ix1 q) := by
  unfold k0_pay1
  rw [addf_apply]
  rw [Cert.LibPlainDot.matmul_plain_zero_apply dot_S5000x512_S512x16_S5000x16_1_0_0_1_n_n dims_plain none _ _ p q]
  rw [broadcastTo_1b_ab_apply, shapeCast_a_1a_apply]
  simp only [truncf_apply]

/-- The same at any index of the block, its two coordinates named. -/
theorem pay_at (x0 : Vec Ideal S5000x512 .f32) (x1 : Vec Ideal S512x16 .f32) (x2 : Vec Ideal S16 .f32) (y : S5000x16.Idx) :
    k0_pay1 x0 x1 x2 y = (∑ k : Fin 512, x0 (ix2 (⟨(y 0).val, (y 0).isLt⟩ : Fin 5000) k) * x1 (ix2 k (⟨(y 1).val, (y 1).isLt⟩ : Fin 16)))
      + x2 (ix1 (⟨(y 1).val, (y 1).isLt⟩ : Fin 16)) := by
  obtain ⟨p, q, rfl⟩ : ∃ (p : Fin 5000) (q : Fin 16), y = ix2 p q := ⟨y 0, y 1, eq_ix2 y⟩
  exact pay_apply x0 x1 x2 p q

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the row-blocked windows sit at block (t, 0), the
    weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the input block at point t is row 5000·t + p of the input array. -/
theorem iblk_x_apply (c : Dev nD) (t : Fin cfg0.N) (p : Fin 5000) (k : Fin 512) (r : Fin 100000)
    (hr : r.val = t.val * 5000 + p.val) :
    (iblk0 V c 0 t : Vec Ideal S5000x512 .f32) (ix2 p k) = (V c main_arg0 : S100000x512.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The weights' block is the whole weight array. -/
theorem iblk_w_apply (c : Dev nD) (t : Fin cfg0.N) (k : Fin 512) (q q' : Fin 16) (hq : q'.val = q.val) :
    (iblk0 V c 1 t : Vec Ideal S512x16 .f32) (ix2 k q) = (V c main_arg2 : S512x16.Idx → EReal) (ix2 k q') := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 16 + 1 * q.val = q'.val; rw [e3, hq]; omega

/-- The bias' block is the whole bias. -/
theorem iblk_b_apply (c : Dev nD) (t : Fin cfg0.N) (q q' : Fin 16) (hq : q'.val = q.val) :
    (iblk0 V c 2 t : Vec Ideal S16 .f32) (ix1 q) = (V c main_arg3 : S16.Idx → EReal) (ix1 q') := by
  obtain ⟨-, -, -, -, e4, -⟩ := idx_facts t
  unfold iblk0
  rw [View.read_apply]
  show V c main_arg3 _ = V c main_arg3 _
  congr 1
  funext a
  apply Fin.ext
  match a with
  | ⟨0, _⟩ => show win0_2.index t (0 : Fin 1) * 16 + 1 * q.val = q'.val; rw [e4, hq]; omega

/-- What point t writes back is block t of the dense layer of the arrays the region finds. -/
theorem flushed_eq (c : Dev nD) (t : Fin cfg0.N) :
    (dat0 V c).flushed 3 t = ((cfg0.win 3).blk t).view.read (Elt Ideal)
      (Cert.Gcn.lin (V c main_arg0) (V c main_arg2) (V c main_arg3)) := by
  show (cfg0.win 3).cut (grid0.coords t) ((dat0 V c).after 3 t) = _
  rw [after0_3]
  unfold out0_3
  rw [View.canon_unit_zero zeros2]
  simp only [View.ld_unit_zero (S := S5000x512) zeros2, View.ld_unit_zero (S := S512x16) zeros2, View.ld_unit_zero (S := S16) zeros1]
  obtain ⟨-, -, -, -, -, e5, e6⟩ := idx_facts t
  funext y
  show k0_pay1 (iblk0 V c 0 t) (iblk0 V c 1 t) (iblk0 V c 2 t) y
    = Cert.Gcn.lin (V c main_arg0) (V c main_arg2) (V c main_arg3) (((cfg0.win 3).blk t).view.emb y)
  have h0 : ((((cfg0.win 3).blk t).view.emb y) 0).val = t.val * 5000 + (y 0).val := by
    show win0_3.index t (0 : Fin 2) * 5000 + 1 * (y 0).val = _
    rw [e5]; omega
  have h1 : ((((cfg0.win 3).blk t).view.emb y) 1).val = (y 1).val := by
    show win0_3.index t (1 : Fin 2) * 16 + 1 * (y 1).val = _
    rw [e6]; omega
  refine (pay_at _ _ _ y).trans ?_
  simp only [Cert.Gcn.lin]
  congr 1
  · refine Finset.sum_congr rfl fun k _ => ?_
    congr 1
    · exact iblk_x_apply V c t _ k _ h0
    · exact iblk_w_apply V c t k _ _ h1
  · exact iblk_b_apply V c t _ _ h1

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v31).slice (win0_3.rect t)).set ↔ _
  rw [View.set_slice_whole, Rect.mem_set_unit]
  exact Iff.rfl

end Lin1

/-- Row r of the output is written by point r / 5000, so the twenty blocks cover the array: it ends holding the dense
    layer x·w + b of the arrays the region finds. -/
theorem lin1_final (c : Dev nD) : (dat0 (F := Ideal) V c).arrAt 3 cfg0.N
    = Cert.Gcn.lin (V c main_arg0) (V c main_arg2) (V c main_arg3) :=
  (dat0 V c).arrAt_eq_of_cover 3 _ (fun t _ => Lin1.flushed_eq V c t) fun i => by
    have hi0 : (i 0).val < 100000 := (i 0).isLt
    have hi1 : (i 1).val < 16 := (i 1).isLt
    have ht : (i 0).val / 5000 < cfg0.N := by
      show (i 0).val / 5000 < grid0.N
      rw [N_0]; omega
    obtain ⟨-, -, -, -, -, e5, e6⟩ := Lin1.idx_facts ⟨(i 0).val / 5000, ht⟩
    refine ⟨⟨(i 0).val / 5000, ht⟩, flush0_3 _, ?_⟩
    rw [Lin1.mem_blk]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e5]
      show (i 0).val / 5000 * 5000 ≤ (i 0).val ∧ (i 0).val < (i 0).val / 5000 * 5000 + 5000
      omega
    | ⟨1, _⟩ =>
      show win0_3.index ⟨(i 0).val / 5000, ht⟩ (1 : Fin 2) * 16 ≤ (i 1).val
        ∧ (i 1).val < win0_3.index ⟨(i 0).val / 5000, ht⟩ (1 : Fin 2) * 16 + 16
      rw [e6]
      omega

end Cert.KernelIdeal.Regions

end
-- ==== Proof.KLin2.lean ====
/-
  The second dense layer of the kernel program, for ANY contents the region finds in its arrays:
  the output array ends holding x·w + b, entry (r, j) = (∑ k, x(r, k)·w(k, j)) + b(j).
  The region runs over 20 grid points; point t stages rows 5000·t … 5000·t + 4999 of x, all of w and b, computes the
  block's product (the two roundings to bf16 are the identity on the extended reals, and accumulating into zeros adds
  nothing), adds the bias row to every row, and writes the block back to rows 5000·t … of the output. Row r of the output
  is therefore written by point r / 5000, and the twenty blocks cover the array.
-/
import proofs.«106247_j9878424780941_1_alg».proof.Proof.Spec
import proofs.«106247_j9878424780941_1_alg».proof.Proof.Gen.KernelIdeal.Frame
import proofs.«106247_j9878424780941_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace Lin2

/-- The product's dimension record is the plain one: rows × contraction by contraction × columns, no batch axis. -/
theorem dims_plain : dot_S5000x16_S16x40_S5000x40_1_0_0_1_n_n = DotDims.plain 5000 16 40 := rfl

/-- The body's arithmetic at entry (p, q): the bf16 roundings are the identity on the extended reals, the product
    accumulated into zeros is the plain sum of products, and the bias row is repeated down the rows. -/
theorem pay_apply (x0 : Vec Ideal S5000x16 .f32) (x1 : Vec Ideal S16x40 .f32) (x2 : Vec Ideal S40 .f32) (p : Fin 5000) (q : Fin 40) :
    k1_pay1 x0 x1 x2 (ix2 p q) = (∑ k : Fin 16, x0 (ix2 p k) * x1 (ix2 k q)) + x2 (ix1 q) := by
  unfold k1_pay1
  rw [addf_apply]
  rw [Cert.LibPlainDot.matmul_plain_zero_apply dot_S5000x16_S16x40_S5000x40_1_0_0_1_n_n dims_plain none _ _ p q]
  rw [broadcastTo_1b_ab_apply, shapeCast_a_1a_apply]
  simp only [truncf_apply, shapeCast_self]

/-- The same at any index of the block, its two coordinates named. -/
theorem pay_at (x0 : Vec Ideal S5000x16 .f32) (x1 : Vec Ideal S16x40 .f32) (x2 : Vec Ideal S40 .f32) (y : S5000x40.Idx) :
    k1_pay1 x0 x1 x2 y = (∑ k : Fin 16, x0 (ix2 (⟨(y 0).val, (y 0).isLt⟩ : Fin 5000) k) * x1 (ix2 k (⟨(y 1).val, (y 1).isLt⟩ : Fin 40)))
      + x2 (ix1 (⟨(y 1).val, (y 1).isLt⟩ : Fin 40)) := by
  obtain ⟨p, q, rfl⟩ : ∃ (p : Fin 5000) (q : Fin 40), y = ix2 p q := ⟨y 0, y 1, eq_ix2 y⟩
  exact pay_apply x0 x1 x2 p q

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the row-blocked windows sit at block (t, 0), the
    weights and the bias at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of the input block at point t is row 5000·t + p of the input array. -/
theorem iblk_x_apply (c : Dev nD) (t : Fin cfg1.N) (p : Fin 5000) (k : Fin 16) (r : Fin 100000)
    (hr : r.val = t.val * 5000 + p.val) :
    (iblk1 V c 0 t : Vec Ideal S5000x16 .f32) (ix2 p k) = (V c main_v45 : S100000x16.Idx → EReal) (ix2 r k) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 16 + 1 * k.val = k.val; rw [e1]; omega

/-- The weights' block is the whole weight array. -/
theorem iblk_w_apply (c : Dev nD) (t : Fin cfg1.N) (k : Fin 16) (q q' : Fin 40) (hq : q'.val = q.val) :
    (iblk1 V c 1 t : Vec Ideal S16x40 .f32) (ix2 k q) = (V c main_arg4 : S16x40.Idx → EReal) (ix2 k q') := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t (0 : Fin 2) * 16 + 1 * k.val = k.val; rw [e2]; omega
  | ⟨1, _⟩ => show win1_1.index t (1 : Fin 2) * 40 + 1 * q.val = q'.val; rw [e3, hq]; omega

/-- The bias' block is the whole bias. -/
theorem iblk_b_apply (c : Dev nD) (t : Fin cfg1.N) (q q' : Fin 40) (hq : q'.val = q.val) :
    (iblk1 V c 2 t : Vec Ideal S40 .f32) (ix1 q) = (V c main_arg5 : S40.Idx → EReal) (ix1 q') := by
  obtain ⟨-, -, -, -, e4, -⟩ := idx_facts t
  unfold iblk1
  rw [View.read_apply]
  show V c main_arg5 _ = V c main_arg5 _
  congr 1
  funext a
  apply Fin.ext
  match a with
  | ⟨0, _⟩ => show win1_2.index t (0 : Fin 1) * 40 + 1 * q.val = q'.val; rw [e4, hq]; omega

/-- What point t writes back is block t of the dense layer of the arrays the region finds. -/
theorem flushed_eq (c : Dev nD) (t : Fin cfg1.N) :
    (dat1 V c).flushed 3 t = ((cfg1.win 3).blk t).view.read (Elt Ideal)
      (Cert.Gcn.lin (V c main_v45) (V c main_arg4) (V c main_arg5)) := by
  show (cfg1.win 3).cut (grid1.coords t) ((dat1 V c).after 3 t) = _
  rw [after1_3]
  unfold out1_3
  rw [View.canon_unit_zero zeros2]
  simp only [View.ld_unit_zero (S := S5000x16) zeros2, View.ld_unit_zero (S := S16x40) zeros2, View.ld_unit_zero (S := S40) zeros1]
  obtain ⟨-, -, -, -, -, e5, e6⟩ := idx_facts t
  funext y
  show k1_pay1 (iblk1 V c 0 t) (iblk1 V c 1 t) (iblk1 V c 2 t) y
    = Cert.Gcn.lin (V c main_v45) (V c main_arg4) (V c main_arg5) (((cfg1.win 3).blk t).view.emb y)
  have h0 : ((((cfg1.win 3).blk t).view.emb y) 0).val = t.val * 5000 + (y 0).val := by
    show win1_3.index t (0 : Fin 2) * 5000 + 1 * (y 0).val = _
    rw [e5]; omega
  have h1 : ((((cfg1.win 3).blk t).view.emb y) 1).val = (y 1).val := by
    show win1_3.index t (1 : Fin 2) * 40 + 1 * (y 1).val = _
    rw [e6]; omega
  refine (pay_at _ _ _ y).trans ?_
  simp only [Cert.Gcn.lin]
  congr 1
  · refine Finset.sum_congr rfl fun k _ => ?_
    congr 1
    · exact iblk_x_apply V c t _ k _ h0
    · exact iblk_w_apply V c t k _ _ h1
  · exact iblk_b_apply V c t _ _ h1

/-- An index of the output array is in point t's block iff each coordinate is in the block's range on its axis. -/
theorem mem_blk (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v46).slice (win1_3.rect t)).set ↔ _
  rw [View.set_slice_whole, Rect.mem_set_unit]
  exact Iff.rfl

end Lin2

/-- Row r of the output is written by point r / 5000, so the twenty blocks cover the array: it ends holding the dense
    layer x·w + b of the arrays the region finds. -/
theorem lin2_final (c : Dev nD) : (dat1 (F := Ideal) V c).arrAt 3 cfg1.N
    = Cert.Gcn.lin (V c main_v45) (V c main_arg4) (V c main_arg5) :=
  (dat1 V c).arrAt_eq_of_cover 3 _ (fun t _ => Lin2.flushed_eq V c t) fun i => by
    have hi0 : (i 0).val < 100000 := (i 0).isLt
    have hi1 : (i 1).val < 40 := (i 1).isLt
    have ht : (i 0).val / 5000 < cfg1.N := by
      show (i 0).val / 5000 < grid1.N
      rw [N_1]; omega
    obtain ⟨-, -, -, -, -, e5, e6⟩ := Lin2.idx_facts ⟨(i 0).val / 5000, ht⟩
    refine ⟨⟨(i 0).val / 5000, ht⟩, flush1_3 _, ?_⟩
    rw [Lin2.mem_blk]
    intro a
    match a with
    | ⟨0, _⟩ =>
      show win1_3.index ⟨(i 0).val / 5000, ht⟩ (0 : Fin 2) * 5000 ≤ (i 0).val
        ∧ (i 0).val < win1_3.index ⟨(i 0).val / 5000, ht⟩ (0 : Fin 2) * 5000 + 5000
      rw [e5]
      show (i 0).val / 5000 * 5000 ≤ (i 0).val ∧ (i 0).val < (i 0).val / 5000 * 5000 + 5000
      omega
    | ⟨1, _⟩ =>
      show win1_3.index ⟨(i 0).val / 5000, ht⟩ (1 : Fin 2) * 40 ≤ (i 1).val
        ∧ (i 1).val < win1_3.index ⟨(i 0).val / 5000, ht⟩ (1 : Fin 2) * 40 + 40
      rw [e6]
      omega

end Cert.KernelIdeal.Regions

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.KSoftmax.lean ====
/-
  The log-softmax region of the kernel program, for ANY contents the region finds in its input array: the output array
  ends holding the row-wise log-softmax, entry (r, j) = z(r, j) − log (∑ q, exp z(r, q)) with z = h − (row r's maximum).
  The region runs over 20 grid points; point t stages rows 5000·t … 5000·t + 4999 of h, takes each row's maximum (the
  fold of max from −∞ over its 40 entries), subtracts it, exponentiates, sums each row, takes the logarithm and subtracts
  it, and writes the block back to the same rows of the output. Every row lies in one block, so the row-wise operations
  of a block are those of the array; row r is written by point r / 5000, and the twenty blocks cover the array.
-/
import proofs.«106247_j9878424780941_1_alg».proof.Proof.Spec
import proofs.«106247_j9878424780941_1_alg».proof.Proof.Gen.KernelIdeal.Frame
import proofs.«106247_j9878424780941_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace Softmax

/-- The reduced axis put back: the index of row p with column j inserted is (p, j). -/
theorem lift_eq (h : S5000x40.Reduces [1] S5000) (p : Fin 5000) (j : Fin 40) : h.lift (ix1 p) j = ix2 p j := by
  funext a
  apply Fin.ext
  match a with
  | ⟨0, _⟩ => rfl
  | ⟨1, _⟩ => rfl

/-- A row's maximum as the body takes it: the fold of max from −∞ over the row's 40 entries. -/
theorem rowmax_apply (src : FVec Ideal S5000x40 .f32) (h : S5000x40.Reduces [1] S5000) (hφ : FKind.Formats .f32)
    (hacc : (0xFF800000#32 : BitVec 32) = 0xFF800000#32) (p : Fin 5000) :
    multiReduction .maximumf [1] S5000 src 0xFF800000#32 h hφ hacc (ix1 p) = Cert.Gcn.rowMax src p := by
  refine (Ideal.multiReduction_maximumf_single src 0xFF800000#32 h hφ hacc (ix1 p)).trans ?_
  have hb : (FloatOps.ofBits (F := Ideal) .f32 0xFF800000#32) = (⊥ : EReal) := by
    show Ideal.ofBits .f32 0xFF800000#32 = ⊥
    simp [Ideal.ofBits, Ideal.ieee]
  have hl : (src ∘ h.lift (ix1 p)) = fun j : Fin 40 => src (ix2 p j) := by
    funext j
    exact congrArg src (lift_eq h p j)
  rw [hb, hl]
  rfl

/-- A row's sum as the body takes it: the sum over the row's 40 entries. -/
theorem rowsum_apply (src : FVec Ideal S5000x40 .f32) (h : S5000x40.Reduces [1] S5000) (hφ : FKind.Formats .f32)
    (hacc : (0x00000000#32 : BitVec 32) = 0x00000000#32) (p : Fin 5000) :
    multiReduction .add [1] S5000 src 0x00000000#32 h hφ hacc (ix1 p) = ∑ j : Fin 40, src (ix2 p j) := by
  refine (Ideal.multiReduction_add_single src 0x00000000#32 h hφ hacc (ix1 p)).trans ?_
  exact Finset.sum_congr rfl fun j _ => congrArg src (lift_eq h p j)

/-- A row with its maximum subtracted, at entry (p, j). -/
theorem centered_apply (x0 : FVec Ideal S5000x40 .f32) (h : S5000x40.Reduces [1] S5000) (hφ : FKind.Formats .f32)
    (hacc : (0xFF800000#32 : BitVec 32) = 0xFF800000#32) (hc : S5000.ShapeCasts S5000x1) (hb : S5000x1.Broadcasts S5000x40)
    (p : Fin 5000) (j : Fin 40) :
    subf x0 (broadcastTo S5000x40 (shapeCast S5000x1 (multiReduction .maximumf [1] S5000 x0 0xFF800000#32 h hφ hacc) hc) hb) (ix2 p j)
      = x0 (ix2 p j) - Cert.Gcn.rowMax x0 p := by
  rw [subf_apply, ColumnForms.broadcastTo_a1_ab_apply, ColumnForms.shapeCast_a_a1_apply, rowmax_apply]

/-- The logarithm of a row's sum of exponentials, read in the one-column form the body keeps it in. -/
theorem logsum_apply (z : FVec Ideal S5000x40 .f32) (h : S5000x40.Reduces [1] S5000) (hφ : FKind.Formats .f32)
    (hacc : (0x00000000#32 : BitVec 32) = 0x00000000#32) (hc : S5000.ShapeCasts S5000x1) (p : Fin 5000) (u : Fin 1) :
    Idealize.ShloMosaic.log (shapeCast S5000x1 (multiReduction .add [1] S5000 (Idealize.ShloMosaic.exp z) 0x00000000#32 h hφ hacc) hc) (ix2 p u)
      = Ideal.log (∑ j : Fin 40, Ideal.exp (z (ix2 p j))) := by
  show Ideal.log (shapeCast S5000x1 (multiReduction .add [1] S5000 (Idealize.ShloMosaic.exp z) 0x00000000#32 h hφ hacc) hc (ix2 p u)) = _
  rw [ColumnForms.shapeCast_a_a1_apply, rowsum_apply]
  rfl

/-- The body's arithmetic at entry (p, q): the row's maximum subtracted, then the logarithm of the row's sum of
    exponentials subtracted. -/
theorem pay_apply (x0 : Vec Ideal S5000x40 .f32) (p : Fin 5000) (q : Fin 40) :
    k2_pay1 x0 (ix2 p q) = (x0 (ix2 p q) - Cert.Gcn.rowMax x0 p)
      - Ideal.log (∑ j : Fin 40, Ideal.exp (x0 (ix2 p j) - Cert.Gcn.rowMax x0 p)) := by
  unfold k2_pay1
  simp only [shapeCast_self]
  rw [subf_apply, ColumnForms.broadcastTo_a1_ab_apply]
  refine (congrArg₂ (fun a b : EReal => a - b) (centered_apply x0 _ _ _ _ _ p q) (logsum_apply _ _ _ _ _ p 0)).trans ?_
  refine congrArg (fun s : EReal => (x0 (ix2 p q) - Cert.Gcn.rowMax x0 p) - Ideal.log s) (Finset.sum_congr rfl fun j _ => ?_)
  exact congrArg Ideal.exp (centered_apply x0 _ _ _ _ _ p j)

/-- The same at any index of the block, its two coordinates named. -/
theorem pay_at (x0 : Vec Ideal S5000x40 .f32) (y : S5000x40.Idx) :
    k2_pay1 x0 y = (x0 (ix2 (⟨(y 0).val, (y 0).isLt⟩ : Fin 5000) (⟨(y 1).val, (y 1).isLt⟩ : Fin 40))
        - Cert.Gcn.rowMax x0 (⟨(y 0).val, (y 0).isLt⟩ : Fin 5000))
      - Ideal.log (∑ j : Fin 40, Ideal.exp (x0 (ix2 (⟨(y 0).val, (y 0).isLt⟩ : Fin 5000) j)
        - Cert.Gcn.rowMax x0 (⟨(y 0).val, (y 0).isLt⟩ : Fin 5000))) := by
  obtain ⟨p, q, rfl⟩ : ∃ (p : Fin 5000) (q : Fin 40), y = ix2 p q := ⟨y 0, y 1, eq_ix2 y⟩
  exact pay_apply x0 p q

/-- The log-softmax is row-wise: where row p of a block is row (i 0) of the array, the block's formula at (p, q) is the
    array's log-softmax at i = (i 0, q). -/
theorem logSoftmax_of_row (H : S100000x40.Idx → EReal) (B : S5000x40.Idx → EReal) (i : S100000x40.Idx) (p : Fin 5000) (q : Fin 40)
    (hB : ∀ j : Fin 40, B (ix2 p j) = H (ix2 (⟨(i 0).val, (i 0).isLt⟩ : Fin 100000) j))
    (hq : (i 1).val = q.val) :
    (B (ix2 p q) - Cert.Gcn.rowMax B p) - Ideal.log (∑ j : Fin 40, Ideal.exp (B (ix2 p j) - Cert.Gcn.rowMax B p))
      = Cert.Gcn.logSoftmax H i := by
  have hrow : (fun j : Fin 40 => B (ix2 p j)) = fun j : Fin 40 => H (ix2 (⟨(i 0).val, (i 0).isLt⟩ : Fin 100000) j) := funext hB
  have hmax : Cert.Gcn.rowMax B p = Cert.Gcn.rowMax H (⟨(i 0).val, (i 0).isLt⟩ : Fin 100000) := by
    unfold Cert.Gcn.rowMax
    rw [hrow]
  have hi : H i = H (ix2 (⟨(i 0).val, (i 0).isLt⟩ : Fin 100000) q) := by
    congr 1
    funext a
    apply Fin.ext
    match a with
    | ⟨0, _⟩ => rfl
    | ⟨1, _⟩ => exact hq
  rw [hmax]
  simp only [hB]
  rw [← hi]
  rfl

theorem zeros2 : (![0, 0] : Fin 2 → Nat) = fun _ => 0 := funext fun a => by fin_cases a <;> rfl

/-- The printed index maps, decided over the 20 grid points: both windows sit at block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row p of the input block at point t is row 5000·t + p of the input array. -/
theorem iblk_apply (c : Dev nD) (t : Fin cfg2.N) (p : Fin 5000) (k : Fin 40) (r : Fin 100000)
    (hr : r.val = t.val * 5000 + p.val) :
    (iblk2 V c 0 t : Vec Ideal S5000x40 .f32) (ix2 p k) = (V c main_v59 : S100000x40.Idx → EReal) (ix2 r k) := by
  obtain ⟨e0, e1, -⟩ := idx_facts t
  unfold iblk2
  rw [View.read_apply]
  show V c main_v59 _ = V c main_v59 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 40 + 1 * k.val = k.val; rw [e1]; omega

/-- What point t writes back is block t of the log-softmax of the array the region finds. -/
theorem flushed_eq (c : Dev nD) (t : Fin cfg2.N) :
    (dat2 V c).flushed 1 t = ((cfg2.win 1).blk t).view.read (Elt Ideal) (Cert.Gcn.logSoftmax (V c main_v59)) := by
  show (cfg2.win 1).cut (grid2.coords t) ((dat2 V c).after 1 t) = _
  rw [after2_1]
  unfold out2_1
  rw [View.canon_unit_zero zeros2]
  simp only [View.ld_unit_zero (S := S5000x40) zeros2]
  obtain ⟨-, -, e2, e3⟩ := idx_facts t
  funext y
  show k2_pay1 (iblk2 V c 0 t) y = Cert.Gcn.logSoftmax (V c main_v59) (((cfg2.win 1).blk t).view.emb y)
  have h0 : ((((cfg2.win 1).blk t).view.emb y) 0).val = t.val * 5000 + (y 0).val := by
    show win2_1.index t (0 : Fin 2) * 5000 + 1 * (y 0).val = _
    rw [e2]; omega
  have h1 : ((((cfg2.win 1).blk t).view.emb y) 1).val = (y 1).val := by
    show win2_1.index t (1 : Fin 2) * 40 + 1 * (y 1).val = _
    rw [e3]; omega
  refine (pay_at _ y).trans ?_
  exact logSoftmax_of_row (V c main_v59) (iblk2 V c 0 t) _ _ _ (fun j => iblk_apply V c t _ j _ h0) h1

/-- An index of the output array is in point t's block iff each coordinate is in the block's range on its axis. -/
theorem mem_blk (t : Fin cfg2.N) (i : S100000x40.Idx) :
    i ∈ ((cfg2.win 1).blk t).view.set ↔ ∀ a : Fin 2, win2_1.index t a * S5000x40.size a ≤ (i a).val
      ∧ (i a).val < win2_1.index t a * S5000x40.size a + S5000x40.size a := by
  show i ∈ ((View.whole main_v60).slice (win2_1.rect t)).set ↔ _
  rw [View.set_slice_whole, Rect.mem_set_unit]
  exact Iff.rfl

end Softmax

/-- Row r of the output is written by point r / 5000, so the twenty blocks cover the array: it ends holding the row-wise
    log-softmax of the array the region finds. -/
theorem softmax_final (c : Dev nD) : (dat2 (F := Ideal) V c).arrAt 1 cfg2.N = Cert.Gcn.logSoftmax (V c main_v59) :=
  (dat2 V c).arrAt_eq_of_cover 1 _ (fun t _ => Softmax.flushed_eq V c t) fun i => by
    have hi0 : (i 0).val < 100000 := (i 0).isLt
    have hi1 : (i 1).val < 40 := (i 1).isLt
    have ht : (i 0).val / 5000 < cfg2.N := by
      show (i 0).val / 5000 < grid2.N
      rw [N_2]; omega
    obtain ⟨-, -, e2, e3⟩ := Softmax.idx_facts ⟨(i 0).val / 5000, ht⟩
    refine ⟨⟨(i 0).val / 5000, ht⟩, flush2_1 _, ?_⟩
    rw [Softmax.mem_blk]
    intro a
    match a with
    | ⟨0, _⟩ =>
      show win2_1.index ⟨(i 0).val / 5000, ht⟩ (0 : Fin 2) * 5000 ≤ (i 0).val
        ∧ (i 0).val < win2_1.index ⟨(i 0).val / 5000, ht⟩ (0 : Fin 2) * 5000 + 5000
      rw [e2]
      show (i 0).val / 5000 * 5000 ≤ (i 0).val ∧ (i 0).val < (i 0).val / 5000 * 5000 + 5000
      omega
    | ⟨1, _⟩ =>
      show win2_1.index ⟨(i 0).val / 5000, ht⟩ (1 : Fin 2) * 40 ≤ (i 1).val
        ∧ (i 1).val < win2_1.index ⟨(i 0).val / 5000, ht⟩ (1 : Fin 2) * 40 + 40
      rw [e3]
      omega

end Cert.KernelIdeal.Regions

end
-- ==== Proof.RefSpec.lean ====
/-
  The reference program's own spelling of its two dense layers and of its row-wise log-softmax, each as one function of
  the arrays it is applied to (the operations as the program lists them, in its order).  That these are `Cert.Gcn.lin`
  and `Cert.Gcn.logSoftmax`, entry by entry, is proved beside this module.
-/
import proofs.«106247_j9878424780941_1_alg».proof.Proof.Spec
import proofs.«106247_j9878424780941_1_alg».proof.Proof.Gen.ReferenceIdeal

noncomputable section

namespace Cert.ReferenceIdeal.Chain

open Cert.ReferenceIdeal Cert.ReferenceIdeal.Facts₀ Idealize.ShloMosaic
open Cert.Gcn (RArr IArr)

/-- x·w₁ + b₁: the product, and the bias repeated down the rows. -/
def dense1 (X : RArr S100000x512) (W : RArr S512x16) (B : RArr S16) : RArr S100000x16 :=
  addf (F := Ideal) (φ := .f32) (Host.dotGeneral (F := Ideal) (φ₁ := .f32) (φ₂ := .f32) dot_S100000x512_S512x16_S100000x16_1_0_0_1_n_n none X W)
    (broadcastInDim S100000x16 ![0, 1] bcast_S1x16_S100000x16_0_1 (broadcastInDim S1x16 ![1] bcast_S16_S1x16_1 B))

/-- h·w₂ + b₂. -/
def dense2 (X : RArr S100000x16) (W : RArr S16x40) (B : RArr S40) : RArr S100000x40 :=
  addf (F := Ideal) (φ := .f32) (Host.dotGeneral (F := Ideal) (φ₁ := .f32) (φ₂ := .f32) dot_S100000x16_S16x40_S100000x40_1_0_0_1_n_n none X W)
    (broadcastInDim S100000x40 ![0, 1] bcast_S1x40_S100000x40_0_1 (broadcastInDim S1x40 ![1] bcast_S40_S1x40_1 B))

/-- Each row's largest entry: the maximum of −∞ and the row's fold of `max` from −∞. -/
def rowMaxRef (H : RArr S100000x40) : RArr S100000 :=
  maximumf (F := Ideal) (φ := .f32) (broadcastInDim S100000 ![] bcast_S_S100000 (constant (F := Ideal) S_ .f32 0xFF800000#32))
    (Host.reduce (FloatOps.maximumf (F := Ideal) (φ := .f32)) H (constant (F := Ideal) S_ .f32 0xFF800000#32) reducesTo_S100000x40_S100000_d1 h_S_)

/-- The rows shifted by their largest entry. -/
def shiftedRef (H : RArr S100000x40) : RArr S100000x40 :=
  subf (F := Ideal) (φ := .f32) H
    (broadcastInDim S100000x40 ![0, 1] bcast_S100000x1_S100000x40_0_1 (broadcastInDim S100000x1 ![0] bcast_S100000_S100000x1_0 (rowMaxRef H)))

/-- The shifted rows less the logarithm of the sum of their exponentials. -/
def logSoftmaxRef (H : RArr S100000x40) : RArr S100000x40 :=
  subf (F := Ideal) (φ := .f32) (shiftedRef H)
    (broadcastInDim S100000x40 ![0, 1] bcast_S100000x1_S100000x40_0_1
      (Host.log (F := Ideal) (broadcastInDim S100000x1 ![0] bcast_S100000_S100000x1_0
        (Host.reduceAdd (F := Ideal) (Host.exp (F := Ideal) (shiftedRef H)) (constant (F := Ideal) S_ .f32 0x00000000#32) reducesTo_S100000x40_S100000_d1 h_S_))))

end Cert.ReferenceIdeal.Chain

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.RefRun.lean ====
/-
  The reference program's run, stretch by stretch.  Its 134 operations are cut into eight consecutive stretches — the first
  dense layer; the edge bookkeeping; the first aggregation; the rectifier; the second dense layer; the edge bookkeeping,
  listed a second time; the second aggregation; the log-softmax — and each stretch is read for ANY contents `W` of the
  buffers it starts from: what it leaves in the buffer the later stretches read is the named function (`Cert.Gcn`'s edge
  bookkeeping and aggregations, the program's own `dense1`, `dense2`, `logSoftmaxRef`) of what `W` holds, and the buffers it does
  not write keep their contents.  The stretches composed give the result as one function of the arguments.
-/
import proofs.«106247_j9878424780941_1_alg».proof.Proof.Spec
import proofs.«106247_j9878424780941_1_alg».proof.Proof.RefSpec
import proofs.«106247_j9878424780941_1_alg».proof.Proof.RefOps
import proofs.«106247_j9878424780941_1_alg».proof.Proof.LibStretch
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem
open Idealize.ShloMosaic.StableHlo Cert.Gcn Cert.ReferenceIdeal.Chain
open Cert.LibStretch (after_append ofBuf_toBuf)

section Lists
variable {F : FTy → Type} [FloatOps F]

/-- The first dense layer: 4 operations. -/
abbrev dense1Ops : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_arg3 main_v1 (broadcastInDim S1x16 ![1] bcast_S16_S1x16_1 : (⟨S16, .f32⟩ : BufTy).Contents (Elt F) → (⟨S1x16, .f32⟩ : BufTy).Contents (Elt F)),
    unary main_v1 main_v2 (broadcastInDim S100000x16 ![0, 1] bcast_S1x16_S100000x16_0_1 : (⟨S1x16, .f32⟩ : BufTy).Contents (Elt F) → (⟨S100000x16, .f32⟩ : BufTy).Contents (Elt F)),
    binary main_v0 main_v2 main_v3 (addf : (⟨S100000x16, .f32⟩ : BufTy).Contents (Elt F) → (⟨S100000x16, .f32⟩ : BufTy).Contents (Elt F) → (⟨S100000x16, .f32⟩ : BufTy).Contents (Elt F)) ]

/-- The edge bookkeeping, as listed before the first aggregation: 38 operations. -/
abbrev edges1Ops : List (HloOp τ sig (Elt F)) :=
  [ nullary main_v4 (iotaInDim S100000 32 0),
    unary main_v4 main_v5 (broadcastInDim S1x100000 ![1] bcast_S100000_S1x100000_1 : (⟨S100000, .i32⟩ : BufTy).Contents (Elt F) → (⟨S1x100000, .i32⟩ : BufTy).Contents (Elt F)),
    reshape main_v5 main_v6 rfl shapeCasts_S1x100000_S1x1x1x100000,
    unary main_v6 main_v7 (broadcastInDim S2x1x1x100000 ![0, 1, 2, 3] bcast_S1x1x1x100000_S2x1x1x100000_0_1_2_3 : (⟨S1x1x1x100000, .i32⟩ : BufTy).Contents (Elt F) → (⟨S2x1x1x100000, .i32⟩ : BufTy).Contents (Elt F)),
    reshape main_v7 main_v8 rfl shapeCasts_S2x1x1x100000_S2x100000,
    binary main_arg1 main_v8 main_v9 ((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)),
    unary main_v9 main_v10 ((extractStridedSlice S1x3300000 ![0, 0] · slices_S2x3300000_S1x3300000_0_0) : (⟨S2x3300000, .i32⟩ : BufTy).Contents (Elt F) → (⟨S1x3300000, .i32⟩ : BufTy).Contents (Elt F)),
    reshape main_v10 main_v11 rfl shapeCasts_S1x3300000_S3300000,
    unary main_v9 main_v12 ((extractStridedSlice S1x3300000 ![1, 0] · slices_S2x3300000_S1x3300000_1_0) : (⟨S2x3300000, .i32⟩ : BufTy).Contents (Elt F) → (⟨S1x3300000, .i32⟩ : BufTy).Contents (Elt F)),
    reshape main_v12 main_v13 rfl shapeCasts_S1x3300000_S3300000,
    nullary main_cst (constant S_ .f32 0x3F800000#32),
    unary main_cst main_v14 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v15 (broadcastInDim S100000 ![] bcast_S_S100000 : (⟨S_, .f32⟩ : BufTy).Contents (Elt F) → (⟨S100000, .f32⟩ : BufTy).Contents (Elt F)),
    unary main_v11 main_v16 (broadcastInDim S3300000x1 ![0] bcast_S3300000_S3300000x1_0 : (⟨S3300000, .i32⟩ : BufTy).Contents (Elt F) → (⟨S3300000x1, .i32⟩ : BufTy).Contents (Elt F)),
    ternary main_v15 main_v16 main_v14 main_v17 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0xBF000000#32),
    unary main_cst_1 main_v18 (broadcastInDim S100000 ![] bcast_S_S100000 : (⟨S_, .f32⟩ : BufTy).Contents (Elt F) → (⟨S100000, .f32⟩ : BufTy).Contents (Elt F)),
    binary main_v17 main_v18 main_v19 (Host.powf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v20 (broadcastInDim S3300000 ![] bcast_S_S3300000 : (⟨S_, .i32⟩ : BufTy).Contents (Elt F) → (⟨S3300000, .i32⟩ : BufTy).Contents (Elt F)),
    binary main_v11 main_v20 main_v21 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v22 (broadcastInDim S3300000 ![] bcast_S_S3300000 : (⟨S_, .i32⟩ : BufTy).Contents (Elt F) → (⟨S3300000, .i32⟩ : BufTy).Contents (Elt F)),
    binary main_v11 main_v22 main_v23 (addi : (⟨S3300000, .i32⟩ : BufTy).Contents (Elt F) → (⟨S3300000, .i32⟩ : BufTy).Contents (Elt F) → (⟨S3300000, .i32⟩ : BufTy).Contents (Elt F)),
    ternary main_v21 main_v23 main_v11 main_v24 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v24 main_v25 (broadcastInDim S3300000x1 ![0] bcast_S3300000_S3300000x1_0 : (⟨S3300000, .i32⟩ : BufTy).Contents (Elt F) → (⟨S3300000x1, .i32⟩ : BufTy).Contents (Elt F)),
    binary main_v19 main_v25 main_v26 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_3 (constantI S_ 32 0#32),
    unary main_c_3 main_v27 (broadcastInDim S3300000 ![] bcast_S_S3300000 : (⟨S_, .i32⟩ : BufTy).Contents (Elt F) → (⟨S3300000, .i32⟩ : BufTy).Contents (Elt F)),
    binary main_v13 main_v27 main_v28 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v29 (broadcastInDim S3300000 ![] bcast_S_S3300000 : (⟨S_, .i32⟩ : BufTy).Contents (Elt F) → (⟨S3300000, .i32⟩ : BufTy).Contents (Elt F)),
    binary main_v13 main_v29 main_v30 (addi : (⟨S3300000, .i32⟩ : BufTy).Contents (Elt F) → (⟨S3300000, .i32⟩ : BufTy).Contents (Elt F) → (⟨S3300000, .i32⟩ : BufTy).Contents (Elt F)),
    ternary main_v28 main_v30 main_v13 main_v31 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v31 main_v32 (broadcastInDim S3300000x1 ![0] bcast_S3300000_S3300000x1_0 : (⟨S3300000, .i32⟩ : BufTy).Contents (Elt F) → (⟨S3300000x1, .i32⟩ : BufTy).Contents (Elt F)),
    binary main_v19 main_v32 main_v33 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v26 main_v33 main_v34 (mulf : (⟨S3300000, .f32⟩ : BufTy).Contents (Elt F) → (⟨S3300000, .f32⟩ : BufTy).Contents (Elt F) → (⟨S3300000, .f32⟩ : BufTy).Contents (Elt F)) ]

/-- The first aggregation: 16 operations. -/
abbrev agg16Ops : List (HloOp τ sig (Elt F)) :=
  [ unary main_v34 main_v35 (broadcastInDim S3300000x1 ![0] bcast_S3300000_S3300000x1_0 : (⟨S3300000, .f32⟩ : BufTy).Contents (Elt F) → (⟨S3300000x1, .f32⟩ : BufTy).Contents (Elt F)),
    nullary main_c_5 (constantI S_ 32 0#32),
    unary main_c_5 main_v36 (broadcastInDim S3300000 ![] bcast_S_S3300000 : (⟨S_, .i32⟩ : BufTy).Contents (Elt F) → (⟨S3300000, .i32⟩ : BufTy).Contents (Elt F)),
    binary main_v11 main_v36 main_v37 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v38 (broadcastInDim S3300000 ![] bcast_S_S3300000 : (⟨S_, .i32⟩ : BufTy).Contents (Elt F) → (⟨S3300000, .i32⟩ : BufTy).Contents (Elt F)),
    binary main_v11 main_v38 main_v39 (addi : (⟨S3300000, .i32⟩ : BufTy).Contents (Elt F) → (⟨S3300000, .i32⟩ : BufTy).Contents (Elt F) → (⟨S3300000, .i32⟩ : BufTy).Contents (Elt F)),
    ternary main_v37 main_v39 main_v11 main_v40 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v40 main_v41 (broadcastInDim S3300000x1 ![0] bcast_S3300000_S3300000x1_0 : (⟨S3300000, .i32⟩ : BufTy).Contents (Elt F) → (⟨S3300000x1, .i32⟩ : BufTy).Contents (Elt F)),
    binary main_v3 main_v41 main_v42 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v35 main_v43 (broadcastInDim S3300000x16 ![0, 1] bcast_S3300000x1_S3300000x16_0_1 : (⟨S3300000x1, .f32⟩ : BufTy).Contents (Elt F) → (⟨S3300000x16, .f32⟩ : BufTy).Contents (Elt F)),
    binary main_v43 main_v42 main_v44 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v45 (broadcastInDim S100000x16 ![] bcast_S_S100000x16 : (⟨S_, .f32⟩ : BufTy).Contents (Elt F) → (⟨S100000x16, .f32⟩ : BufTy).Contents (Elt F)),
    unary main_v13 main_v46 (broadcastInDim S3300000x1 ![0] bcast_S3300000_S3300000x1_0 : (⟨S3300000, .i32⟩ : BufTy).Contents (Elt F) → (⟨S3300000x1, .i32⟩ : BufTy).Contents (Elt F)),
    ternary main_v45 main_v46 main_v44 main_v47 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The rectifier: 3 operations. -/
abbrev reluOps : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v47) (TRef.of (T := ⟨S100000x16, .f32⟩) main_call0_v0) (TRef.of (T := ⟨S100000x16, .f32⟩) main_v48) maximumf ]

/-- The second dense layer: 4 operations. -/
abbrev dense2Ops : List (HloOp τ sig (Elt F)) :=
  [ binary main_v48 main_arg4 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_arg5 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)) ]

/-- The edge bookkeeping again, as listed before the second aggregation: 38 operations. -/
abbrev edges2Ops : List (HloOp τ sig (Elt F)) :=
  [ nullary main_v53 (iotaInDim S100000 32 0),
    unary main_v53 main_v54 (broadcastInDim S1x100000 ![1] bcast_S100000_S1x100000_1 : (⟨S100000, .i32⟩ : BufTy).Contents (Elt F) → (⟨S1x100000, .i32⟩ : BufTy).Contents (Elt F)),
    reshape main_v54 main_v55 rfl shapeCasts_S1x100000_S1x1x1x100000,
    unary main_v55 main_v56 (broadcastInDim S2x1x1x100000 ![0, 1, 2, 3] bcast_S1x1x1x100000_S2x1x1x100000_0_1_2_3 : (⟨S1x1x1x100000, .i32⟩ : BufTy).Contents (Elt F) → (⟨S2x1x1x100000, .i32⟩ : BufTy).Contents (Elt F)),
    reshape main_v56 main_v57 rfl shapeCasts_S2x1x1x100000_S2x100000,
    binary main_arg1 main_v57 main_v58 ((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)),
    unary main_v58 main_v59 ((extractStridedSlice S1x3300000 ![0, 0] · slices_S2x3300000_S1x3300000_0_0) : (⟨S2x3300000, .i32⟩ : BufTy).Contents (Elt F) → (⟨S1x3300000, .i32⟩ : BufTy).Contents (Elt F)),
    reshape main_v59 main_v60 rfl shapeCasts_S1x3300000_S3300000,
    unary main_v58 main_v61 ((extractStridedSlice S1x3300000 ![1, 0] · slices_S2x3300000_S1x3300000_1_0) : (⟨S2x3300000, .i32⟩ : BufTy).Contents (Elt F) → (⟨S1x3300000, .i32⟩ : BufTy).Contents (Elt F)),
    reshape main_v61 main_v62 rfl shapeCasts_S1x3300000_S3300000,
    nullary main_cst_8 (constant S_ .f32 0x3F800000#32),
    unary main_cst_8 main_v63 (broadcastInDim S3300000 ![] bcast_S_S3300000 : (⟨S_, .f32⟩ : BufTy).Contents (Elt F) → (⟨S3300000, .f32⟩ : BufTy).Contents (Elt F)),
    nullary main_cst_9 (constant S_ .f32 0x00000000#32),
    unary main_cst_9 main_v64 (broadcastInDim S100000 ![] bcast_S_S100000 : (⟨S_, .f32⟩ : BufTy).Contents (Elt F) → (⟨S100000, .f32⟩ : BufTy).Contents (Elt F)),
    unary main_v60 main_v65 (broadcastInDim S3300000x1 ![0] bcast_S3300000_S3300000x1_0 : (⟨S3300000, .i32⟩ : BufTy).Contents (Elt F) → (⟨S3300000x1, .i32⟩ : BufTy).Contents (Elt F)),
    ternary main_v64 main_v65 main_v63 main_v66 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_10 (constant S_ .f32 0xBF000000#32),
    unary main_cst_10 main_v67 (broadcastInDim S100000 ![] bcast_S_S100000 : (⟨S_, .f32⟩ : BufTy).Contents (Elt F) → (⟨S100000, .f32⟩ : BufTy).Contents (Elt F)),
    binary main_v66 main_v67 main_v68 (Host.powf : (⟨S100000, .f32⟩ : BufTy).Contents (Elt F) → (⟨S100000, .f32⟩ : BufTy).Contents (Elt F) → (⟨S100000, .f32⟩ : BufTy).Contents (Elt F)),
    nullary main_c_11 (constantI S_ 32 0#32),
    unary main_c_11 main_v69 (broadcastInDim S3300000 ![] bcast_S_S3300000 : (⟨S_, .i32⟩ : BufTy).Contents (Elt F) → (⟨S3300000, .i32⟩ : BufTy).Contents (Elt F)),
    binary main_v60 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v71 (broadcastInDim S3300000 ![] bcast_S_S3300000 : (⟨S_, .i32⟩ : BufTy).Contents (Elt F) → (⟨S3300000, .i32⟩ : BufTy).Contents (Elt F)),
    binary main_v60 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v60 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_13 (constantI S_ 32 0#32),
    unary main_c_13 main_v76 (broadcastInDim S3300000 ![] bcast_S_S3300000 : (⟨S_, .i32⟩ : BufTy).Contents (Elt F) → (⟨S3300000, .i32⟩ : BufTy).Contents (Elt F)),
    binary main_v62 main_v76 main_v77 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v78 (broadcastInDim S3300000 ![] bcast_S_S3300000 : (⟨S_, .i32⟩ : BufTy).Contents (Elt F) → (⟨S3300000, .i32⟩ : BufTy).Contents (Elt F)),
    binary main_v62 main_v78 main_v79 (addi : (⟨S3300000, .i32⟩ : BufTy).Contents (Elt F) → (⟨S3300000, .i32⟩ : BufTy).Contents (Elt F) → (⟨S3300000, .i32⟩ : BufTy).Contents (Elt F)),
    ternary main_v77 main_v79 main_v62 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v80 main_v81 (broadcastInDim S3300000x1 ![0] bcast_S3300000_S3300000x1_0 : (⟨S3300000, .i32⟩ : BufTy).Contents (Elt F) → (⟨S3300000x1, .i32⟩ : BufTy).Contents (Elt F)),
    binary main_v68 main_v81 main_v82 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v75 main_v82 main_v83 (mulf : (⟨S3300000, .f32⟩ : BufTy).Contents (Elt F) → (⟨S3300000, .f32⟩ : BufTy).Contents (Elt F) → (⟨S3300000, .f32⟩ : BufTy).Contents (Elt F)) ]

/-- The second aggregation: 16 operations. -/
abbrev agg40Ops : List (HloOp τ sig (Elt F)) :=
  [ unary main_v83 main_v84 (broadcastInDim S3300000x1 ![0] bcast_S3300000_S3300000x1_0 : (⟨S3300000, .f32⟩ : BufTy).Contents (Elt F) → (⟨S3300000x1, .f32⟩ : BufTy).Contents (Elt F)),
    nullary main_c_15 (constantI S_ 32 0#32),
    unary main_c_15 main_v85 (broadcastInDim S3300000 ![] bcast_S_S3300000 : (⟨S_, .i32⟩ : BufTy).Contents (Elt F) → (⟨S3300000, .i32⟩ : BufTy).Contents (Elt F)),
    binary main_v60 main_v85 main_v86 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v87 (broadcastInDim S3300000 ![] bcast_S_S3300000 : (⟨S_, .i32⟩ : BufTy).Contents (Elt F) → (⟨S3300000, .i32⟩ : BufTy).Contents (Elt F)),
    binary main_v60 main_v87 main_v88 (addi : (⟨S3300000, .i32⟩ : BufTy).Contents (Elt F) → (⟨S3300000, .i32⟩ : BufTy).Contents (Elt F) → (⟨S3300000, .i32⟩ : BufTy).Contents (Elt F)),
    ternary main_v86 main_v88 main_v60 main_v89 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v89 main_v90 (broadcastInDim S3300000x1 ![0] bcast_S3300000_S3300000x1_0 : (⟨S3300000, .i32⟩ : BufTy).Contents (Elt F) → (⟨S3300000x1, .i32⟩ : BufTy).Contents (Elt F)),
    binary main_v52 main_v90 main_v91 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v84 main_v92 (broadcastInDim S3300000x40 ![0, 1] bcast_S3300000x1_S3300000x40_0_1 : (⟨S3300000x1, .f32⟩ : BufTy).Contents (Elt F) → (⟨S3300000x40, .f32⟩ : BufTy).Contents (Elt F)),
    binary main_v92 main_v91 main_v93 (mulf : (⟨S3300000x40, .f32⟩ : BufTy).Contents (Elt F) → (⟨S3300000x40, .f32⟩ : BufTy).Contents (Elt F) → (⟨S3300000x40, .f32⟩ : BufTy).Contents (Elt F)),
    nullary main_cst_17 (constant S_ .f32 0x00000000#32),
    unary main_cst_17 main_v94 (broadcastInDim S100000x40 ![] bcast_S_S100000x40 : (⟨S_, .f32⟩ : BufTy).Contents (Elt F) → (⟨S100000x40, .f32⟩ : BufTy).Contents (Elt F)),
    unary main_v62 main_v95 (broadcastInDim S3300000x1 ![0] bcast_S3300000_S3300000x1_0 : (⟨S3300000, .i32⟩ : BufTy).Contents (Elt F) → (⟨S3300000x1, .i32⟩ : BufTy).Contents (Elt F)),
    ternary main_v94 main_v95 main_v93 main_v96 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

/-- The log-softmax: 15 operations. -/
abbrev softmaxOps : List (HloOp τ sig (Elt F)) :=
  [ TRef.nullary (TRef.of (T := ⟨S_, .f32⟩) main_call1_cst) (constant S_ .f32 0xFF800000#32),
    TRef.binary (TRef.of (T := ⟨S100000x40, .f32⟩) main_v96) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v96) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v97) subf ]

set_option maxRecDepth 8192 in
/-- The program's list of operations is the eight stretches in order. -/
theorem ops_split : (Cert.ReferenceIdeal.ValueP.ops (F := F))
    = dense1Ops ++ (edges1Ops ++ (agg16Ops ++ (reluOps ++ (dense2Ops ++ (edges2Ops ++ (agg40Ops ++ softmaxOps)))))) := rfl

end Lists

variable (W : Valuation τ sig (Elt Ideal))

/-! ## The first dense layer -/
theorem dense1_out : after (dense1Ops (F := Ideal)) W (Proc.devRef .tc main_v3) = dense1 (W (Proc.devRef .tc main_arg0)) (W (Proc.devRef .tc main_arg2)) (W (Proc.devRef .tc main_arg3)) := by
  after_results_simp; rfl
theorem dense1_arg1 : after (dense1Ops (F := Ideal)) W (Proc.devRef .tc main_arg1) = W (Proc.devRef .tc main_arg1) := by
  after_results_simp
theorem dense1_arg4 : after (dense1Ops (F := Ideal)) W (Proc.devRef .tc main_arg4) = W (Proc.devRef .tc main_arg4) := by
  after_results_simp
theorem dense1_arg5 : after (dense1Ops (F := Ideal)) W (Proc.devRef .tc main_arg5) = W (Proc.devRef .tc main_arg5) := by
  after_results_simp

/-! ## The edge bookkeeping -/
theorem edges1_src : after (edges1Ops (F := Ideal)) W (Proc.devRef .tc main_v11) = src (W (Proc.devRef .tc main_arg1)) := by
  after_results_simp; rfl
theorem edges1_tgt : after (edges1Ops (F := Ideal)) W (Proc.devRef .tc main_v13) = tgt (W (Proc.devRef .tc main_arg1)) := by
  after_results_simp; rfl
theorem edges1_norm : after (edges1Ops (F := Ideal)) W (Proc.devRef .tc main_v34) = norm (src (W (Proc.devRef .tc main_arg1))) (tgt (W (Proc.devRef .tc main_arg1))) := by
  after_results_simp; rfl
theorem edges1_v3 : after (edges1Ops (F := Ideal)) W (Proc.devRef .tc main_v3) = W (Proc.devRef .tc main_v3) := by
  after_results_simp
theorem edges1_arg1 : after (edges1Ops (F := Ideal)) W (Proc.devRef .tc main_arg1) = W (Proc.devRef .tc main_arg1) := by
  after_results_simp
theorem edges1_arg4 : after (edges1Ops (F := Ideal)) W (Proc.devRef .tc main_arg4) = W (Proc.devRef .tc main_arg4) := by
  after_results_simp
theorem edges1_arg5 : after (edges1Ops (F := Ideal)) W (Proc.devRef .tc main_arg5) = W (Proc.devRef .tc main_arg5) := by
  after_results_simp

/-! ## The first aggregation and the rectifier -/
theorem agg16_out : after (agg16Ops (F := Ideal)) W (Proc.devRef .tc main_v47) = agg16 (W (Proc.devRef .tc main_v11)) (W (Proc.devRef .tc main_v13)) (W (Proc.devRef .tc main_v34)) (W (Proc.devRef .tc main_v3)) := by
  after_results_simp; rfl
theorem agg16_arg1 : after (agg16Ops (F := Ideal)) W (Proc.devRef .tc main_arg1) = W (Proc.devRef .tc main_arg1) := by
  after_results_simp
theorem agg16_arg4 : after (agg16Ops (F := Ideal)) W (Proc.devRef .tc main_arg4) = W (Proc.devRef .tc main_arg4) := by
  after_results_simp
theorem agg16_arg5 : after (agg16Ops (F := Ideal)) W (Proc.devRef .tc main_arg5) = W (Proc.devRef .tc main_arg5) := by
  after_results_simp

theorem relu_out : after (reluOps (F := Ideal)) W (Proc.devRef .tc main_v48) = relu (W (Proc.devRef .tc main_v47)) := by
  after_results_simp; rfl
theorem relu_arg1 : after (reluOps (F := Ideal)) W (Proc.devRef .tc main_arg1) = W (Proc.devRef .tc main_arg1) := by
  after_results_simp
theorem relu_arg4 : after (reluOps (F := Ideal)) W (Proc.devRef .tc main_arg4) = W (Proc.devRef .tc main_arg4) := by
  after_results_simp
theorem relu_arg5 : after (reluOps (F := Ideal)) W (Proc.devRef .tc main_arg5) = W (Proc.devRef .tc main_arg5) := by
  after_results_simp

/-! ## The second dense layer -/
theorem dense2_out : after (dense2Ops (F := Ideal)) W (Proc.devRef .tc main_v52) = dense2 (W (Proc.devRef .tc main_v48)) (W (Proc.devRef .tc main_arg4)) (W (Proc.devRef .tc main_arg5)) := by
  after_results_simp; rfl
theorem dense2_arg1 : after (dense2Ops (F := Ideal)) W (Proc.devRef .tc main_arg1) = W (Proc.devRef .tc main_arg1) := by
  after_results_simp

/-! ## The edge bookkeeping, a second time -/
theorem edges2_src : after (edges2Ops (F := Ideal)) W (Proc.devRef .tc main_v60) = src (W (Proc.devRef .tc main_arg1)) := by
  after_results_simp; rfl
theorem edges2_tgt : after (edges2Ops (F := Ideal)) W (Proc.devRef .tc main_v62) = tgt (W (Proc.devRef .tc main_arg1)) := by
  after_results_simp; rfl
theorem edges2_norm : after (edges2Ops (F := Ideal)) W (Proc.devRef .tc main_v83) = norm (src (W (Proc.devRef .tc main_arg1))) (tgt (W (Proc.devRef .tc main_arg1))) := by
  after_results_simp; rfl
theorem edges2_v52 : after (edges2Ops (F := Ideal)) W (Proc.devRef .tc main_v52) = W (Proc.devRef .tc main_v52) := by
  after_results_simp

/-! ## The second aggregation and the log-softmax -/
theorem agg40_out : after (agg40Ops (F := Ideal)) W (Proc.devRef .tc main_v96) = agg40 (W (Proc.devRef .tc main_v60)) (W (Proc.devRef .tc main_v62)) (W (Proc.devRef .tc main_v83)) (W (Proc.devRef .tc main_v52)) := by
  after_results_simp; rfl
theorem softmax_out : after (softmaxOps (F := Ideal)) W (Proc.devRef .tc main_v97) = logSoftmaxRef (W (Proc.devRef .tc main_v96)) := by
  after_results_simp
  simp only [ofBuf_toBuf]
  rfl

end Cert.ReferenceIdeal.Stretch

end
-- ==== Proof.RefValue.lean ====
/-
  The reference program's result as one function of its arguments: the eight stretches composed, and its run.  Entry by
  entry the program's dense layers and log-softmax are `Cert.Gcn.lin` and `Cert.Gcn.logSoftmax` (proved beside this module
  and taken here as hypotheses), so the result is the same term the kernel program's result is.
-/
import proofs.«106247_j9878424780941_1_alg».proof.Proof.RefRun

noncomputable section

namespace Cert.ReferenceIdeal.Stretch

open Cert.ReferenceIdeal Cert.ReferenceIdeal.Gen Idealize.ShloMosaic Idealize.ShloMosaic.TcCoe Idealize.SL.Sem
open Idealize.ShloMosaic.StableHlo Cert.Gcn Cert.ReferenceIdeal.Chain
open Cert.LibStretch (after_append)

/-- The whole list read at the result's buffer, in the program's own dense layers and log-softmax. -/
theorem value_chain (W : Valuation τ sig (Elt Ideal)) :
    after (Cert.ReferenceIdeal.ValueP.ops (F := Ideal)) W (Proc.devRef .tc main_v97)
      = logSoftmaxRef (agg40 (src (W (Proc.devRef .tc main_arg1))) (tgt (W (Proc.devRef .tc main_arg1))) (norm (src (W (Proc.devRef .tc main_arg1))) (tgt (W (Proc.devRef .tc main_arg1))))
          (dense2 (relu (agg16 (src (W (Proc.devRef .tc main_arg1))) (tgt (W (Proc.devRef .tc main_arg1))) (norm (src (W (Proc.devRef .tc main_arg1))) (tgt (W (Proc.devRef .tc main_arg1))))
            (dense1 (W (Proc.devRef .tc main_arg0)) (W (Proc.devRef .tc main_arg2)) (W (Proc.devRef .tc main_arg3))))) (W (Proc.devRef .tc main_arg4)) (W (Proc.devRef .tc main_arg5)))) := by
  rw [ops_split]
  simp only [after_append]
  rw [softmax_out, agg40_out, edges2_src, edges2_tgt, edges2_norm, edges2_v52, dense2_arg1, dense2_out,
    relu_arg1, relu_out, relu_arg4, relu_arg5, agg16_arg1, agg16_out, agg16_arg4, agg16_arg5,
    edges1_arg1, edges1_src, edges1_tgt, edges1_norm, edges1_v3, edges1_arg4, edges1_arg5,
    dense1_arg1, dense1_out, dense1_arg4, dense1_arg5]

/-! No operation writes an argument's buffer. -/

set_option maxHeartbeats 4000000 in
theorem kept_arg0 (W : Valuation τ sig (Elt Ideal)) :
    after (Cert.ReferenceIdeal.ValueP.ops (F := Ideal)) W (Proc.devRef .tc main_arg0) = W (Proc.devRef .tc main_arg0) :=
  after_of_forall_not_mem (b := Proc.devRef .tc main_arg0) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

set_option maxHeartbeats 4000000 in
theorem kept_arg1 (W : Valuation τ sig (Elt Ideal)) :
    after (Cert.ReferenceIdeal.ValueP.ops (F := Ideal)) W (Proc.devRef .tc main_arg1) = W (Proc.devRef .tc main_arg1) :=
  after_of_forall_not_mem (b := Proc.devRef .tc main_arg1) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

set_option maxHeartbeats 4000000 in
theorem kept_arg2 (W : Valuation τ sig (Elt Ideal)) :
    after (Cert.ReferenceIdeal.ValueP.ops (F := Ideal)) W (Proc.devRef .tc main_arg2) = W (Proc.devRef .tc main_arg2) :=
  after_of_forall_not_mem (b := Proc.devRef .tc main_arg2) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

set_option maxHeartbeats 4000000 in
theorem kept_arg3 (W : Valuation τ sig (Elt Ideal)) :
    after (Cert.ReferenceIdeal.ValueP.ops (F := Ideal)) W (Proc.devRef .tc main_arg3) = W (Proc.devRef .tc main_arg3) :=
  after_of_forall_not_mem (b := Proc.devRef .tc main_arg3) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

set_option maxHeartbeats 4000000 in
theorem kept_arg4 (W : Valuation τ sig (Elt Ideal)) :
    after (Cert.ReferenceIdeal.ValueP.ops (F := Ideal)) W (Proc.devRef .tc main_arg4) = W (Proc.devRef .tc main_arg4) :=
  after_of_forall_not_mem (b := Proc.devRef .tc main_arg4) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

set_option maxHeartbeats 4000000 in
theorem kept_arg5 (W : Valuation τ sig (Elt Ideal)) :
    after (Cert.ReferenceIdeal.ValueP.ops (F := Ideal)) W (Proc.devRef .tc main_arg5) = W (Proc.devRef .tc main_arg5) :=
  after_of_forall_not_mem (b := Proc.devRef .tc main_arg5) _ _ (List.forall_iff_forall_mem.mp (by
    simp only [Cert.ReferenceIdeal.ValueP.ops, List.Forall, nullary_writes, unary_writes, binary_writes, ternary_writes,
      reshape_writes, Finset.mem_singleton]
    repeat' apply And.intro
    all_goals exact devRef_ne_of_ne (by decide)))

section
variable
  (hd1 : ∀ (X : RArr S100000x512) (Wt : RArr S512x16) (B : RArr S16), dense1 X Wt B = lin X Wt B)
  (hd2 : ∀ (X : RArr S100000x16) (Wt : RArr S16x40) (B : RArr S40), dense2 X Wt B = lin X Wt B)
  (hls : ∀ H : RArr S100000x40, logSoftmaxRef H = logSoftmax H)

include hd1 hd2 hls in
/-- The run: every weakly fair execution terminates with the result at the two-layer graph convolution's log-softmax of
    the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97) = logSoftmax (agg40 (src (m ((c.tc : Thread nD τ).loc main_arg1))) (tgt (m ((c.tc : Thread nD τ).loc main_arg1))) (norm (src (m ((c.tc : Thread nD τ).loc main_arg1))) (tgt (m ((c.tc : Thread nD τ).loc main_arg1))))
        (lin (relu (agg16 (src (m ((c.tc : Thread nD τ).loc main_arg1))) (tgt (m ((c.tc : Thread nD τ).loc main_arg1))) (norm (src (m ((c.tc : Thread nD τ).loc main_arg1))) (tgt (m ((c.tc : Thread nD τ).loc main_arg1))))
          (lin (m ((c.tc : Thread nD τ).loc main_arg0)) (m ((c.tc : Thread nD τ).loc main_arg2)) (m ((c.tc : Thread nD τ).loc main_arg3))))) (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans (by
        rw [value_chain, hls, hd2, hd1]),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end

end Cert.ReferenceIdeal.Stretch

end
-- ==== Proof.RefDense.lean ====
/-
  The reference's two dense layers, entry by entry.  Each is a plain matrix product followed by the bias repeated
  down the rows: entry (r, j) of the product is the sum over k of x(r, k)·w(k, j); the bias, first laid out as one
  row and then copied to every row, contributes b(j) at (r, j).
-/
import proofs.«106247_j9878424780941_1_alg».proof.Proof.RefSpec
import proofs.«106247_j9878424780941_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Chain

open Cert.ReferenceIdeal Cert.ReferenceIdeal.Facts₀ Idealize.ShloMosaic Idealize.ShloMosaic.ValueIdx
open scoped BigOperators

/-- A vector laid out as one row and then copied to every one of `M` rows reads, at (r, j), its entry j. -/
private theorem bias_apply {M N : Nat} (h1 : (⟨1, ![N]⟩ : Shape).BroadcastsInDim (⟨2, ![1, N]⟩ : Shape) (![1] : Fin 1 → Fin 2))
    (h2 : (⟨2, ![1, N]⟩ : Shape).BroadcastsInDim (⟨2, ![M, N]⟩ : Shape) (![0, 1] : Fin 2 → Fin 2))
    (B : (⟨1, ![N]⟩ : Shape).Idx → EReal) (r : Fin M) (j : Fin N) (hN : N ≠ 1) :
    broadcastInDim (⟨2, ![M, N]⟩ : Shape) ![0, 1] h2 (broadcastInDim (⟨2, ![1, N]⟩ : Shape) ![1] h1 B) (ix2 r j) = B (ix1 j) := by
  refine (broadcastInDim_apply _ h2 _ (ix2 r j) (ix2 (0 : Fin 1) j) ?_).trans ?_
  · intro a
    match a with
    | ⟨0, _⟩ => rfl
    | ⟨1, _⟩ => exact (if_neg hN).symm
  · refine broadcastInDim_apply _ h1 B (ix2 (0 : Fin 1) j) (ix1 j) ?_
    intro a
    match a with
    | ⟨0, _⟩ => exact (if_neg hN).symm

private theorem dot1_plain : dot_S100000x512_S512x16_S100000x16_1_0_0_1_n_n = DotDims.plain 100000 512 16 := rfl

private theorem dot2_plain : dot_S100000x16_S16x40_S100000x40_1_0_0_1_n_n = DotDims.plain 100000 16 40 := rfl

/-- x·w₁ + b₁ as the reference computes it is `lin`: the product read at (r, j), plus the bias at j. -/
theorem dense1_eq (X : Cert.Gcn.RArr S100000x512) (W : Cert.Gcn.RArr S512x16) (B : Cert.Gcn.RArr S16) :
    dense1 X W B = Cert.Gcn.lin X W B := by
  funext i
  obtain ⟨p, q, rfl⟩ : ∃ (p : Fin 100000) (q : Fin 16), i = ix2 p q := ⟨i 0, i 1, eq_ix2 i⟩
  unfold dense1
  rw [addf_apply, Cert.LibPlainDot.dotGeneral_plain_apply _ dot1_plain none X W p q,
    bias_apply bcast_S16_S1x16_1 bcast_S1x16_S100000x16_0_1 B p q (by decide)]
  rfl

/-- h·w₂ + b₂ likewise. -/
theorem dense2_eq (X : Cert.Gcn.RArr S100000x16) (W : Cert.Gcn.RArr S16x40) (B : Cert.Gcn.RArr S40) :
    dense2 X W B = Cert.Gcn.lin X W B := by
  funext i
  obtain ⟨p, q, rfl⟩ : ∃ (p : Fin 100000) (q : Fin 40), i = ix2 p q := ⟨i 0, i 1, eq_ix2 i⟩
  unfold dense2
  rw [addf_apply, Cert.LibPlainDot.dotGeneral_plain_apply _ dot2_plain none X W p q,
    bias_apply bcast_S40_S1x40_1 bcast_S1x40_S100000x40_0_1 B p q (by decide)]
  rfl

end Cert.ReferenceIdeal.Chain

end
-- ==== Proof.RefSoftmax.lean ====
/-
  The reference's row-wise log-softmax, entry by entry.  Row r's largest entry is the fold of max over the row from
  −∞ (the further maximum with −∞ changes nothing); the shifted entry (r, j) is h(r, j) less that maximum; the result
  is the shifted entry less the logarithm of the row's sum of exponentials of the shifted entries.  The per-row
  quantities are laid out as one column and copied along the rows, so at (r, j) they read the value of row r.
-/
import proofs.«106247_j9878424780941_1_alg».proof.Proof.RefSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Chain

open Cert.ReferenceIdeal Cert.ReferenceIdeal.Facts₀ Idealize.ShloMosaic Idealize.ShloMosaic.ValueIdx
open scoped BigOperators

/-- The word 0xFF800000 is −∞. -/
private theorem negInf_eq : Ideal.ofBits .f32 0xFF800000#32 = (⊥ : EReal) := by
  simp [Ideal.ofBits, Ideal.ieee]

/-- A per-row vector laid out as one column reads, at (r, 0), its entry r. -/
private theorem toCol_apply {M : Nat} {α : Type} (h : (⟨1, ![M]⟩ : Shape).BroadcastsInDim (⟨2, ![M, 1]⟩ : Shape) (![0] : Fin 1 → Fin 2))
    (v : (⟨1, ![M]⟩ : Shape).Idx → α) (r : Fin M) (hM : M ≠ 1) :
    broadcastInDim (⟨2, ![M, 1]⟩ : Shape) ![0] h v (ix2 r (0 : Fin 1)) = v (ix1 r) := by
  refine broadcastInDim_apply _ h v (ix2 r (0 : Fin 1)) (ix1 r) ?_
  intro a
  match a with
  | ⟨0, _⟩ => exact (if_neg hM).symm

/-- One column copied along the rows reads, at (r, j), the column's entry (r, 0). -/
private theorem alongRow_apply {M N : Nat} {α : Type}
    (h : (⟨2, ![M, 1]⟩ : Shape).BroadcastsInDim (⟨2, ![M, N]⟩ : Shape) (![0, 1] : Fin 2 → Fin 2))
    (v : (⟨2, ![M, 1]⟩ : Shape).Idx → α) (r : Fin M) (j : Fin N) (hM : M ≠ 1) :
    broadcastInDim (⟨2, ![M, N]⟩ : Shape) ![0, 1] h v (ix2 r j) = v (ix2 r (0 : Fin 1)) := by
  refine broadcastInDim_apply _ h v (ix2 r j) (ix2 r (0 : Fin 1)) ?_
  intro a
  match a with
  | ⟨0, _⟩ => exact (if_neg hM).symm
  | ⟨1, _⟩ => rfl

/-- The row index r with the column coordinate k put back is (r, k). -/
private theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  match c with
  | ⟨0, _⟩ => rfl
  | ⟨1, _⟩ => rfl

private theorem reduces_row : S100000x40.Reduces [1] S100000 := by decide

/-- The host's exponential and logarithm act entry by entry. -/
private theorem hostExp_apply {s : Shape} (v : FVec Ideal s .f32) (i : s.Idx) : Host.exp (F := Ideal) v i = Ideal.exp (v i) := rfl
private theorem hostLog_apply {s : Shape} (v : FVec Ideal s .f32) (i : s.Idx) : Host.log (F := Ideal) v i = Ideal.log (v i) := rfl

/-- The host's fold of max along a row from −∞, at r: the fold of max from −∞ over row r's entries. -/
private theorem hostRowMax_apply (x : FVec Ideal S100000x40 .f32) (p : Fin 100000) :
    Host.reduce (FloatOps.maximumf (F := Ideal) (φ := .f32)) x (constant (F := Ideal) S_ .f32 0xFF800000#32)
        reducesTo_S100000x40_S100000_d1 h_S_ (ix1 p)
      = Cert.Gcn.rowMax x p := by
  rw [Host.reduce_eq_fold_single FloatOps.maximumf x _ reducesTo_S100000x40_S100000_d1 reduces_row h_S_, constant_apply, negInf_eq]
  unfold Cert.Gcn.rowMax
  have hf : (x ∘ reduces_row.lift (ix1 p)) = fun q : Fin 40 => x (ix2 p q) :=
    funext fun k => congrArg x (lift_row reduces_row p k)
  exact congrArg (fun f => Finset.fold max (⊥ : EReal) f (Finset.univ : Finset (Fin 40))) hf

/-- The reference's row maximum at r: the further maximum with −∞ is the identity. -/
private theorem rowMaxRef_apply (H : Cert.Gcn.RArr S100000x40) (p : Fin 100000) :
    rowMaxRef H (ix1 p) = Cert.Gcn.rowMax H p := by
  unfold rowMaxRef
  rw [maximumf_apply, broadcastInDim_apply _ bcast_S_S100000 _ (ix1 p) ix0 (fun a => a.elim0), constant_apply, negInf_eq,
    max_bot_left]
  exact hostRowMax_apply H p

/-- The shifted entry (r, j): h(r, j) less row r's maximum. -/
private theorem shiftedRef_apply (H : Cert.Gcn.RArr S100000x40) (p : Fin 100000) (q : Fin 40) :
    shiftedRef H (ix2 p q) = H (ix2 p q) - Cert.Gcn.rowMax H p := by
  unfold shiftedRef
  rw [subf_apply, alongRow_apply bcast_S100000x1_S100000x40_0_1 _ p q (by decide),
    toCol_apply bcast_S100000_S100000x1_0 _ p (by decide), rowMaxRef_apply]

/-- The host's sum along a row from the zero word, at r: the sum of row r's entries. -/
private theorem rowSum_apply (x : Cert.Gcn.RArr S100000x40) (p : Fin 100000) :
    Host.reduceAdd (F := Ideal) x (constant (F := Ideal) S_ .f32 0x00000000#32) reducesTo_S100000x40_S100000_d1 h_S_ (ix1 p)
      = ∑ q : Fin 40, x (ix2 p q) := by
  unfold Host.reduceAdd
  rw [Ideal.hostReduceAdd_def, Ideal.hostReduceAdd_single _ reduces_row, constant_apply, Ideal.ofBits_zero_f32, zero_add]
  exact Finset.sum_congr rfl (fun k _ => congrArg x (lift_row reduces_row p k))

/-- The reference's log-softmax is `logSoftmax`: at (r, j) the shifted entry less the logarithm of row r's sum of
    exponentials of the shifted entries. -/
theorem logSoftmaxRef_eq (H : Cert.Gcn.RArr S100000x40) : logSoftmaxRef H = Cert.Gcn.logSoftmax H := by
  funext i
  obtain ⟨p, q, rfl⟩ : ∃ (p : Fin 100000) (q : Fin 40), i = ix2 p q := ⟨i 0, i 1, eq_ix2 i⟩
  unfold logSoftmaxRef
  rw [subf_apply, shiftedRef_apply, alongRow_apply bcast_S100000x1_S100000x40_0_1 _ p q (by decide), hostLog_apply,
    toCol_apply bcast_S100000_S100000x1_0 _ p (by decide), rowSum_apply]
  simp only [hostExp_apply, shiftedRef_apply]
  rfl

end Cert.ReferenceIdeal.Chain

end
-- ==== Proof.lean ====
/-
  Two programs for a two-layer graph convolution with a row-wise log-softmax, over 100000 nodes and 3200000 edges:
      out = logSoftmax (A · (relu (A · (x·w₁ + b₁)) · w₂ + b₂)),
  A the degree-normalised adjacency of the edge list with a self loop appended at every node.  The kernel program runs
  the two dense layers and the log-softmax as three tiled regions (twenty blocks of 5000 rows each; the products taken on
  operands narrowed to bf16, which at the ideal values is no change) among the array operations of the edge bookkeeping and
  the aggregations; the reference runs everything as array operations and lists the edge bookkeeping twice.

  At the ideal values — floats the extended reals, every operation exact — both results are ONE term of the arguments:
  the edge bookkeeping and the aggregations are the same chain of operations in both programs and are carried as named
  functions, never opened (`Cert.Gcn.src`, `tgt`, `norm`, `agg16`, `agg40`, `relu`); a dense layer is, entry (r, j), the
  sum over k of x(r, k)·w(k, j) plus b(j) in both (`Cert.Gcn.lin`: a block of rows of the product depends on those rows
  only, so the twenty blocks tile the whole product; no law beyond reading a product as a sum is used); the log-softmax is,
  entry (r, j), the entry shifted by its row's maximum less the logarithm of the row's sum of exponentials of the shifted
  entries in both (`Cert.Gcn.logSoftmax`: the reference's further maximum with −∞ is the identity).  No step needs the
  inputs finite, so the precondition is not opened.

  The kernel's three frames and the word-level program's frame are the generated ones; the reference's frame is its run with
  the result forgotten; the idealization rewrote nothing, so `preserves` is `True`.
-/
import proofs.«106247_j9878424780941_1_alg».proof.Defs
import proofs.«106247_j9878424780941_1_alg».proof.Proof.Gen.Kernel
import proofs.«106247_j9878424780941_1_alg».proof.Proof.Gen.Kernel.Skeleton
import proofs.«106247_j9878424780941_1_alg».proof.Proof.Gen.Kernel.Launch
import proofs.«106247_j9878424780941_1_alg».proof.Proof.Gen.Kernel.Points
import proofs.«106247_j9878424780941_1_alg».proof.Proof.Gen.Kernel.Frame
import proofs.«106247_j9878424780941_1_alg».proof.Proof.Gen.KernelIdeal
import proofs.«106247_j9878424780941_1_alg».proof.Proof.Gen.KernelIdeal.Skeleton
import proofs.«106247_j9878424780941_1_alg».proof.Proof.Gen.KernelIdeal.Launch
import proofs.«106247_j9878424780941_1_alg».proof.Proof.Gen.KernelIdeal.Points
import proofs.«106247_j9878424780941_1_alg».proof.Proof.Gen.KernelIdeal.Frame
import proofs.«106247_j9878424780941_1_alg».proof.Proof.Gen.ReferenceIdeal
import proofs.«106247_j9878424780941_1_alg».proof.Proof.Gen.Pre_finite_inputs
import proofs.«106247_j9878424780941_1_alg».proof.Proof.KRun
import proofs.«106247_j9878424780941_1_alg».proof.Proof.KValue
import proofs.«106247_j9878424780941_1_alg».proof.Proof.KLin1
import proofs.«106247_j9878424780941_1_alg».proof.Proof.KLin2
import proofs.«106247_j9878424780941_1_alg».proof.Proof.KSoftmax
import proofs.«106247_j9878424780941_1_alg».proof.Proof.RefValue
import proofs.«106247_j9878424780941_1_alg».proof.Proof.RefDense
import proofs.«106247_j9878424780941_1_alg».proof.Proof.RefSoftmax
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Stretch.run Cert.ReferenceIdeal.Chain.dense1_eq Cert.ReferenceIdeal.Chain.dense2_eq
      Cert.ReferenceIdeal.Chain.logSoftmaxRef_eq m ρ)

/-- The ideal pass rewrote no operation. -/
theorem preserves : Cert.preserves_Kernel_KernelIdeal := trivial

/-- Both programs end with the result at the graph convolution's log-softmax of the arguments: the kernel's by the walk
    through its segments over the three regions' values, the reference's by its stretches; the arguments agree. -/
theorem algebraic : Cert.algebraic_KernelIdeal_ReferenceIdeal := by
  intro m ρ m' ρ' _ hagree
  refine ⟨fun c => Cert.Gcn.logSoftmax (Cert.Gcn.agg40 (Cert.Gcn.src (m ((c.tc : Thread Cert.KernelIdeal.nD Cert.KernelIdeal.τ).loc Cert.KernelIdeal.main_arg1))) (Cert.Gcn.tgt (m ((c.tc : Thread Cert.KernelIdeal.nD Cert.KernelIdeal.τ).loc Cert.KernelIdeal.main_arg1)))
      (Cert.Gcn.norm (Cert.Gcn.src (m ((c.tc : Thread Cert.KernelIdeal.nD Cert.KernelIdeal.τ).loc Cert.KernelIdeal.main_arg1))) (Cert.Gcn.tgt (m ((c.tc : Thread Cert.KernelIdeal.nD Cert.KernelIdeal.τ).loc Cert.KernelIdeal.main_arg1))))
      (Cert.Gcn.lin (Cert.Gcn.relu (Cert.Gcn.agg16 (Cert.Gcn.src (m ((c.tc : Thread Cert.KernelIdeal.nD Cert.KernelIdeal.τ).loc Cert.KernelIdeal.main_arg1))) (Cert.Gcn.tgt (m ((c.tc : Thread Cert.KernelIdeal.nD Cert.KernelIdeal.τ).loc Cert.KernelIdeal.main_arg1)))
        (Cert.Gcn.norm (Cert.Gcn.src (m ((c.tc : Thread Cert.KernelIdeal.nD Cert.KernelIdeal.τ).loc Cert.KernelIdeal.main_arg1))) (Cert.Gcn.tgt (m ((c.tc : Thread Cert.KernelIdeal.nD Cert.KernelIdeal.τ).loc Cert.KernelIdeal.main_arg1))))
        (Cert.Gcn.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))), ?_, ?_⟩
  · exact (θ_run Cert.KernelIdeal.defs _ _).mono
      (fun _ h c => ⟨(h c).1.trans (Cert.KernelIdeal.Walk.out_eq m ρ Cert.KernelIdeal.Regions.lin1_final
        Cert.KernelIdeal.Regions.lin2_final Cert.KernelIdeal.Regions.softmax_final c), (h c).2⟩)
      (Cert.KernelIdeal.Run.run_out (F := Ideal) m ρ)
  · refine (θ_run Cert.ReferenceIdeal.defs _ _).mono (fun _ h c => ⟨(h c).1.trans ?_, (h c).2⟩) (Cert.ReferenceIdeal.Stretch.run Cert.ReferenceIdeal.Chain.dense1_eq Cert.ReferenceIdeal.Chain.dense2_eq
      Cert.ReferenceIdeal.Chain.logSoftmaxRef_eq m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
